-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v26) = v4 c
          ∧ r.2.mem ((c.tc : Thread Cert.ReferenceIdeal.nD Cert.ReferenceIdeal.τ).loc Cert.ReferenceIdeal.main_v32) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1000x1024 : Shape := ⟨2, ![1000, 1024]⟩
abbrev S1000 : Shape := ⟨1, ![1000]⟩
abbrev S800x1000 : Shape := ⟨2, ![800, 1000]⟩
abbrev S800 : Shape := ⟨1, ![800]⟩
abbrev S400x800 : Shape := ⟨2, ![400, 800]⟩
abbrev S400 : Shape := ⟨1, ![400]⟩
abbrev S600x400 : Shape := ⟨2, ![600, 400]⟩
abbrev S600 : Shape := ⟨1, ![600]⟩
abbrev S6x600 : Shape := ⟨2, ![6, 600]⟩
abbrev S6 : Shape := ⟨1, ![6]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S1000 : S_.BroadcastsInDim S1000 (![] : Fin 0 → Fin S1000.rank)
  reducesTo_S1000_S_d0 : S1000.ReducesTo [0] S_
  bcast_S_S800x1000 : S_.BroadcastsInDim S800x1000 (![] : Fin 0 → Fin S800x1000.rank)
  reducesTo_S800x1000_S_d0_1 : S800x1000.ReducesTo [0, 1] S_
  bcast_S_S800 : S_.BroadcastsInDim S800 (![] : Fin 0 → Fin S800.rank)
  reducesTo_S800_S_d0 : S800.ReducesTo [0] S_
  bcast_S_S400x800 : S_.BroadcastsInDim S400x800 (![] : Fin 0 → Fin S400x800.rank)
  reducesTo_S400x800_S_d0_1 : S400x800.ReducesTo [0, 1] S_
  bcast_S_S400 : S_.BroadcastsInDim S400 (![] : Fin 0 → Fin S400.rank)
  reducesTo_S400_S_d0 : S400.ReducesTo [0] S_
  bcast_S_S600x400 : S_.BroadcastsInDim S600x400 (![] : Fin 0 → Fin S600x400.rank)
  reducesTo_S600x400_S_d0_1 : S600x400.ReducesTo [0, 1] S_
  bcast_S_S600 : S_.BroadcastsInDim S600 (![] : Fin 0 → Fin S600.rank)
  reducesTo_S600_S_d0 : S600.ReducesTo [0] S_
  bcast_S_S6x600 : S_.BroadcastsInDim S6x600 (![] : Fin 0 → Fin S6x600.rank)
  reducesTo_S6x600_S_d0_1 : S6x600.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_arg14 : FVec F S6 .f32) (main_arg15 : FVec F S6x600 .f32) (main_v63 : IVec S_ 1) (main_v67 : IVec S_ 1) : IVec S_ 1 :=
  let main_v68 : IVec S_ 1 := andi main_v63 main_v67
  let main_v69 : FVec F S6 .f32 := Host.absf main_arg14
  let main_cst_26 : FVec F S_ .f32 := constant S_ .f32 0x7F800000#32
  let main_v70 : FVec F S6 .f32 := broadcastInDim S6 ![] bcast_S_S6 main_cst_26
  let main_v71 : IVec S6 1 := cmpf .olt main_v69 main_v70
  let main_c_27 : IVec S_ 1 := constantI S_ 1 1#1
  let main_v72 : IVec S_ 1 := (fun x v => Host.reduce IntOp.andi x v reducesTo_S6_S_d0 h_S_) main_v71 main_c_27
  let main_v73 : IVec S_ 1 := andi main_v68 main_v72
  let main_v74 : FVec F S6x600 .f32 := Host.absf main_arg15
  let main_cst_28 : FVec F S_ .f32 := constant S_ .f32 0x7F800000#32
  let main_v75 : FVec F S6x600 .f32 := broadcastInDim S6x600 ![] bcast_S_S6x600 main_cst_28
  let main_v76 : IVec S6x600 1 := cmpf .olt main_v74 main_v75
  let main_c_29 : IVec S_ 1 := constantI S_ 1 1#1
  let main_v77 : IVec S_ 1 := (fun x v => Host.reduce IntOp.andi x v reducesTo_S6x600_S_d0_1 h_S_) main_v76 main_c_29
  let main_v78 : IVec S_ 1 := andi main_v73 main_v77
  main_v78

def fn_part3 {F : FTy → Type} [FloatOps F] (main_arg11 : FVec F S600 .f32) (main_arg12 : FVec F S600x400 .f32) (main_arg13 : FVec F S6x600 .f32) (main_arg14 : FVec F S6 .f32) (main_arg15 : FVec F S6x600 .f32) (main_v48 : IVec S_ 1) (main_v49 : FVec F S600x400 .f32) (main_v50 : FVec F S600x400 .f32) : IVec S_ 1 :=
  let main_v51 : IVec S600x400 1 := cmpf .olt main_v49 main_v50
  let main_c_19 : IVec S_ 1 := constantI S_ 1 1#1
  let main_v52 : IVec S_ 1 := (fun x v => Host.reduce IntOp.andi x v reducesTo_S600x400_S_d0_1 h_S_) main_v51 main_c_19
  let main_v53 : IVec S_ 1 := andi main_v48 main_v52
  let main_v54 : FVec F S600 .f32 := Host.absf main_arg11
  let main_cst_20 : FVec F S_ .f32 := constant S_ .f32 0x7F800000#32
  let main_v55 : FVec F S600 .f32 := broadcastInDim S600 ![] bcast_S_S600 main_cst_20
  let main_v56 : IVec S600 1 := cmpf .olt main_v54 main_v55
  let main_c_21 : IVec S_ 1 := constantI S_ 1 1#1
  let main_v57 : IVec S_ 1 := (fun x v => Host.reduce IntOp.andi x v reducesTo_S600_S_d0 h_S_) main_v56 main_c_21
  let main_v58 : IVec S_ 1 := andi main_v53 main_v57
  let main_v59 : FVec F S600x400 .f32 := Host.absf main_arg12
  let main_cst_22 : FVec F S_ .f32 := constant S_ .f32 0x7F800000#32
  let main_v60 : FVec F S600x400 .f32 := broadcastInDim S600x400 ![] bcast_S_S600x400 main_cst_22
  let main_v61 : IVec S600x400 1 := cmpf .olt main_v59 main_v60
  let main_c_23 : IVec S_ 1 := constantI S_ 1 1#1
  let main_v62 : IVec S_ 1 := (fun x v => Host.reduce IntOp.andi x v reducesTo_S600x400_S_d0_1 h_S_) main_v61 main_c_23
  let main_v63 : IVec S_ 1 := andi main_v58 main_v62
  let main_v64 : FVec F S6x600 .f32 := Host.absf main_arg13
  let main_cst_24 : FVec F S_ .f32 := constant S_ .f32 0x7F800000#32
  let main_v65 : FVec F S6x600 .f32 := broadcastInDim S6x600 ![] bcast_S_S6x600 main_cst_24
  let main_v66 : IVec S6x600 1 := cmpf .olt main_v64 main_v65
  let main_c_25 : IVec S_ 1 := constantI S_ 1 1#1
  let main_v67 : IVec S_ 1 := (fun x v => Host.reduce IntOp.andi x v reducesTo_S6x600_S_d0_1 h_S_) main_v66 main_c_25
  fn_part4 (F := F) main_arg14 main_arg15 main_v63 main_v67

def fn_part2 {F : FTy → Type} [FloatOps F] (main_arg7 : FVec F S400x800 .f32) (main_arg8 : FVec F S400 .f32) (main_arg9 : FVec F S400x800 .f32) (main_arg10 : FVec F S600x400 .f32) (main_arg11 : FVec F S600 .f32) (main_arg12 : FVec F S600x400 .f32) (main_arg13 : FVec F S6x600 .f32) (main_arg14 : FVec F S6 .f32) (main_arg15 : FVec F S6x600 .f32) (main_v33 : IVec S_ 1) : IVec S_ 1 :=
  let main_v34 : FVec F S400x800 .f32 := Host.absf main_arg7
  let main_cst_12 : FVec F S_ .f32 := constant S_ .f32 0x7F800000#32
  let main_v35 : FVec F S400x800 .f32 := broadcastInDim S400x800 ![] bcast_S_S400x800 main_cst_12
  let main_v36 : IVec S400x800 1 := cmpf .olt main_v34 main_v35
  let main_c_13 : IVec S_ 1 := constantI S_ 1 1#1
  let main_v37 : IVec S_ 1 := (fun x v => Host.reduce IntOp.andi x v reducesTo_S400x800_S_d0_1 h_S_) main_v36 main_c_13
  let main_v38 : IVec S_ 1 := andi main_v33 main_v37
  let main_v39 : FVec F S400 .f32 := Host.absf main_arg8
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  let main_v44 : FVec F S400x800 .f32 := Host.absf main_arg9
  let main_cst_16 : FVec F S_ .f32 := constant S_ .f32 0x7F800000#32
  let main_v45 : FVec F S400x800 .f32 := broadcastInDim S400x800 ![] bcast_S_S400x800 main_cst_16
  let main_v46 : IVec S400x800 1 := cmpf .olt main_v44 main_v45
  let main_c_17 : IVec S_ 1 := constantI S_ 1 1#1
  let main_v47 : IVec S_ 1 := (fun x v => Host.reduce IntOp.andi x v reducesTo_S400x800_S_d0_1 h_S_) main_v46 main_c_17
  let main_v48 : IVec S_ 1 := andi main_v43 main_v47
  let main_v49 : FVec F S600x400 .f32 := Host.absf main_arg10
  let main_cst_18 : FVec F S_ .f32 := constant S_ .f32 0x7F800000#32
  let main_v50 : FVec F S600x400 .f32 := broadcastInDim S600x400 ![] bcast_S_S600x400 main_cst_18
  fn_part3 (F := F) main_arg11 main_arg12 main_arg13 main_arg14 main_arg15 main_v48 main_v49 main_v50

def fn_part1 {F : FTy → Type} [FloatOps F] (main_arg4 : FVec F S800x1000 .f32) (main_arg5 : FVec F S800 .f32) (main_arg6 : FVec F S800x1000 .f32) (main_arg7 : FVec F S400x800 .f32) (main_arg8 : FVec F S400 .f32) (main_arg9 : FVec F S400x800 .f32) (main_arg10 : FVec F S600x400 .f32) (main_arg11 : FVec F S600 .f32) (main_arg12 : FVec F S600x400 .f32) (main_arg13 : FVec F S6x600 .f32) (main_arg14 : FVec F S6 .f32) (main_arg15 : FVec F S6x600 .f32) (main_v13 : IVec S_ 1) (main_v16 : IVec S1000x1024 1) : IVec S_ 1 :=
  let main_c_5 : IVec S_ 1 := constantI S_ 1 1#1
  let main_v17 : IVec S_ 1 := (fun x v => Host.reduce IntOp.andi x v reducesTo_S1000x1024_S_d0_1 h_S_) main_v16 main_c_5
  let main_v18 : IVec S_ 1 := andi main_v13 main_v17
  let main_v19 : FVec F S800x1000 .f32 := Host.absf main_arg4
  let main_cst_6 : FVec F S_ .f32 := constant S_ .f32 0x7F800000#32
  let main_v20 : FVec F S800x1000 .f32 := broadcastInDim S800x1000 ![] bcast_S_S800x1000 main_cst_6
  let main_v21 : IVec S800x1000 1 := cmpf .olt main_v19 main_v20
  let main_c_7 : IVec S_ 1 := constantI S_ 1 1#1
  let main_v22 : IVec S_ 1 := (fun x v => Host.reduce IntOp.andi x v reducesTo_S800x1000_S_d0_1 h_S_) main_v21 main_c_7
  let main_v23 : IVec S_ 1 := andi main_v18 main_v22
  let main_v24 : FVec F S800 .f32 := Host.absf main_arg5
  let main_cst_8 : FVec F S_ .f32 := constant S_ .f32 0x7F800000#32
  let main_v25 : FVec F S800 .f32 := broadcastInDim S800 ![] bcast_S_S800 main_cst_8
  let main_v26 : IVec S800 1 := cmpf .olt main_v24 main_v25
  let main_c_9 : IVec S_ 1 := constantI S_ 1 1#1
  let main_v27 : IVec S_ 1 := (fun x v => Host.reduce IntOp.andi x v reducesTo_S800_S_d0 h_S_) main_v26 main_c_9
  let main_v28 : IVec S_ 1 := andi main_v23 main_v27
  let main_v29 : FVec F S800x1000 .f32 := Host.absf main_arg6
  let main_cst_10 : FVec F S_ .f32 := constant S_ .f32 0x7F800000#32
  let main_v30 : FVec F S800x1000 .f32 := broadcastInDim S800x1000 ![] bcast_S_S800x1000 main_cst_10
  let main_v31 : IVec S800x1000 1 := cmpf .olt main_v29 main_v30
  let main_c_11 : IVec S_ 1 := constantI S_ 1 1#1
  let main_v32 : IVec S_ 1 := (fun x v => Host.reduce IntOp.andi x v reducesTo_S800x1000_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x1024 .f32) (main_arg1 : FVec F S1000x1024 .f32) (main_arg2 : FVec F S1000 .f32) (main_arg3 : FVec F S1000x1024 .f32) (main_arg4 : FVec F S800x1000 .f32) (main_arg5 : FVec F S800 .f32) (main_arg6 : FVec F S800x1000 .f32) (main_arg7 : FVec F S400x800 .f32) (main_arg8 : FVec F S400 .f32) (main_arg9 : FVec F S400x800 .f32) (main_arg10 : FVec F S600x400 .f32) (main_arg11 : FVec F S600 .f32) (main_arg12 : FVec F S600x400 .f32) (main_arg13 : FVec F S6x600 .f32) (main_arg14 : FVec F S6 .f32) (main_arg15 : FVec F S6x600 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg1
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S1000x1024 .f32 := Host.absf main_arg3
  let main_cst_4 : FVec F S_ .f32 := constant S_ .f32 0x7F800000#32
  let main_v15 : FVec F S1000x1024 .f32 := broadcastInDim S1000x1024 ![] bcast_S_S1000x1024 main_cst_4
  let main_v16 : IVec S1000x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x1024 : Shape := ⟨2, ![16384, 1024]⟩
abbrev S1000x1024 : Shape := ⟨2, ![1000, 1024]⟩
abbrev S1000 : Shape := ⟨1, ![1000]⟩
abbrev S800x1000 : Shape := ⟨2, ![800, 1000]⟩
abbrev S800 : Shape := ⟨1, ![800]⟩
abbrev S400x800 : Shape := ⟨2, ![400, 800]⟩
abbrev S400 : Shape := ⟨1, ![400]⟩
abbrev S600x400 : Shape := ⟨2, ![600, 400]⟩
abbrev S600 : Shape := ⟨1, ![600]⟩
abbrev S6x600 : Shape := ⟨2, ![6, 600]⟩
abbrev S6 : Shape := ⟨1, ![6]⟩
abbrev S1x1000 : Shape := ⟨2, ![1, 1000]⟩
abbrev S1x800 : Shape := ⟨2, ![1, 800]⟩
abbrev S1x400 : Shape := ⟨2, ![1, 400]⟩
abbrev S1x600 : Shape := ⟨2, ![1, 600]⟩
abbrev S1x6 : Shape := ⟨2, ![1, 6]⟩
abbrev S16384x1000 : Shape := ⟨2, ![16384, 1000]⟩
abbrev S16384x800 : Shape := ⟨2, ![16384, 800]⟩
abbrev S16384x400 : Shape := ⟨2, ![16384, 400]⟩
abbrev S16384x600 : Shape := ⟨2, ![16384, 600]⟩
abbrev S16384x6 : Shape := ⟨2, ![16384, 6]⟩
abbrev S512x1024 : Shape := ⟨2, ![512, 1024]⟩
abbrev S512x1000 : Shape := ⟨2, ![512, 1000]⟩
abbrev S512x800 : Shape := ⟨2, ![512, 800]⟩
abbrev S512x400 : Shape := ⟨2, ![512, 400]⟩
abbrev S512x600 : Shape := ⟨2, ![512, 600]⟩
abbrev S512x6 : Shape := ⟨2, ![512, 6]⟩

abbrev nBuf : Space → Nat
  | .hbm => 31
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S1000, .f32⟩
  | .hbm, ⟨3, _⟩ => ⟨S1000x1024, .f32⟩
  | .hbm, ⟨4, _⟩ => ⟨S800x1000, .f32⟩
  | .hbm, ⟨5, _⟩ => ⟨S800, .f32⟩
  | .hbm, ⟨6, _⟩ => ⟨S800x1000, .f32⟩
  | .hbm, ⟨7, _⟩ => ⟨S400x800, .f32⟩
  | .hbm, ⟨8, _⟩ => ⟨S400, .f32⟩
  | .hbm, ⟨9, _⟩ => ⟨S400x800, .f32⟩
  | .hbm, ⟨10, _⟩ => ⟨S600x400, .f32⟩
  | .hbm, ⟨11, _⟩ => ⟨S600, .f32⟩
  | .hbm, ⟨12, _⟩ => ⟨S600x400, .f32⟩
  | .hbm, ⟨13, _⟩ => ⟨S6x600, .f32⟩
  | .hbm, ⟨14, _⟩ => ⟨S6, .f32⟩
  | .hbm, ⟨15, _⟩ => ⟨S6x600, .f32⟩
  | .hbm, ⟨16, _⟩ => ⟨S1x1000, .f32⟩
  | .hbm, ⟨17, _⟩ => ⟨S1x800, .f32⟩
  | .hbm, ⟨18, _⟩ => ⟨S1x400, .f32⟩
  | .hbm, ⟨19, _⟩ => ⟨S1x600, .f32⟩
  | .hbm, ⟨20, _⟩ => ⟨S1x6, .f32⟩
  | .hbm, ⟨21, _⟩ => ⟨S16384x1000, .bf16⟩
  | .hbm, ⟨22, _⟩ => ⟨S16384x800, .bf16⟩
  | .hbm, ⟨23, _⟩ => ⟨S16384x400, .bf16⟩
  | .hbm, ⟨24, _⟩ => ⟨S16384x600, .bf16⟩
  | .hbm, ⟨25, _⟩ => ⟨S16384x6, .bf16⟩
  | .hbm, ⟨26, _⟩ => ⟨S16384x1000, .f32⟩
  | .hbm, ⟨27, _⟩ => ⟨S16384x800, .f32⟩
  | .hbm, ⟨28, _⟩ => ⟨S16384x400, .f32⟩
  | .hbm, ⟨29, _⟩ => ⟨S16384x600, .f32⟩
  | .hbm, ⟨30, _⟩ => ⟨S16384x6, .f32⟩
  | .local _ .vmem, ⟨0, _⟩ => ⟨S512x1024, .f32⟩
  | .local _ .vmem, ⟨1, _⟩ => ⟨S512x1024, .f32⟩
  | .local _ .vmem, ⟨2, _⟩ => ⟨S1000x1024, .f32⟩
  | .local _ .vmem, ⟨3, _⟩ => ⟨S1x1000, .f32⟩
  | .local _ .vmem, ⟨4, _⟩ => ⟨S1000x1024, .f32⟩
  | .local _ .vmem, ⟨5, _⟩ => ⟨S800x1000, .f32⟩
  | .local _ .vmem, ⟨6, _⟩ => ⟨S1x800, .f32⟩
  | .local _ .vmem, ⟨7, _⟩ => ⟨S800x1000, .f32⟩
  | .local _ .vmem, ⟨8, _⟩ => ⟨S400x800, .f32⟩
  | .local _ .vmem, ⟨9, _⟩ => ⟨S1x400, .f32⟩
  | .local _ .vmem, ⟨10, _⟩ => ⟨S400x800, .f32⟩
  | .local _ .vmem, ⟨11, _⟩ => ⟨S600x400, .f32⟩
  | .local _ .vmem, ⟨12, _⟩ => ⟨S1x600, .f32⟩
  | .local _ .vmem, ⟨13, _⟩ => ⟨S600x400, .f32⟩
  | .local _ .vmem, ⟨14, _⟩ => ⟨S6x600, .f32⟩
  | .local _ .vmem, ⟨15, _⟩ => ⟨S1x6, .f32⟩
  | .local _ .vmem, ⟨16, _⟩ => ⟨S6x600, .f32⟩
  | .local _ .vmem, ⟨17, _⟩ => ⟨S512x1000, .bf16⟩
  | .local _ .vmem, ⟨18, _⟩ => ⟨S512x1000, .bf16⟩
  | .local _ .vmem, ⟨19, _⟩ => ⟨S512x800, .bf16⟩
  | .local _ .vmem, ⟨20, _⟩ => ⟨S512x800, .bf16⟩
  | .local _ .vmem, ⟨21, _⟩ => ⟨S512x400, .bf16⟩
  | .local _ .vmem, ⟨22, _⟩ => ⟨S512x400, .bf16⟩
  | .local _ .vmem, ⟨23, _⟩ => ⟨S512x600, .bf16⟩
  | .local _ .vmem, ⟨24, _⟩ => ⟨S512x600, .bf16⟩
  | .local _ .vmem, ⟨25, _⟩ => ⟨S512x6, .bf16⟩
  | .local _ .vmem, ⟨26, _⟩ => ⟨S512x6, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev main_v5_4 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S800x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x800 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S800x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400x800 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x400 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x800 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S600x400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x600 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S600x400 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x600 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x6 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S6x600 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1000 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x800 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x400 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x600 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x6 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S1000_S1x1000 : S1000.ShapeCasts S1x1000
  shapeCasts_S800_S1x800 : S800.ShapeCasts S1x800
  shapeCasts_S400_S1x400 : S400.ShapeCasts S1x400
  shapeCasts_S600_S1x600 : S600.ShapeCasts S1x600
  shapeCasts_S6_S1x6 : S6.ShapeCasts S1x6
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1000x1024_S1000x1024_0_0 : ∀ a, (![0, 0] : Fin 2 → Nat) a + S1000x1024.size a ≤ S1000x1024.size a
  h_S1000x1024 : 0 < S1000x1024.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  packedbf16_S512x1000_S512x1000_0_0 : (Rect.unit (s := S512x1000) ![0, 0] S512x1000.size inb_S512x1000_S512x1000_0_0).PackedRows (EltTy.packing .bf16)
  inb_S800x1000_S800x1000_0_0 : ∀ a, (![0, 0] : Fin 2 → Nat) a + S800x1000.size a ≤ S800x1000.size a
  h_S800x1000 : 0 < S800x1000.numel
  inb_S1x800_S1x800_0_0 : ∀ a, (![0, 0] : Fin 2 → Nat) a + S1x800.size a ≤ S1x800.size a
  h_S1x800 : 0 < S1x800.numel
  shapeCasts_S1x800_S1x800 : S1x800.ShapeCasts S1x800
  broadcasts_S1x800_S512x800 : S1x800.Broadcasts S512x800
  inb_S512x800_S512x800_0_0 : ∀ a, (![0, 0] : Fin 2 → Nat) a + S512x800.size a ≤ S512x800.size a
  h_S512x800 : 0 < S512x800.numel
  packedbf16_S512x800_S512x800_0_0 : (Rect.unit (s := S512x800) ![0, 0] S512x800.size inb_S512x800_S512x800_0_0).PackedRows (EltTy.packing .bf16)
  inb_S400x800_S400x800_0_0 : ∀ a, (![0, 0] : Fin 2 → Nat) a + S400x800.size a ≤ S400x800.size a
  h_S400x800 : 0 < S400x800.numel
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S512x400 : S1x400.Broadcasts S512x400
  inb_S512x400_S512x400_0_0 : ∀ a, (![0, 0] : Fin 2 → Nat) a + S512x400.size a ≤ S512x400.size a
  h_S512x400 : 0 < S512x400.numel
  packedbf16_S512x400_S512x400_0_0 : (Rect.unit (s := S512x400) ![0, 0] S512x400.size inb_S512x400_S512x400_0_0).PackedRows (EltTy.packing .bf16)
  inb_S600x400_S600x400_0_0 : ∀ a, (![0, 0] : Fin 2 → Nat) a + S600x400.size a ≤ S600x400.size a
  h_S600x400 : 0 < S600x400.numel
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S512x600 : S1x600.Broadcasts S512x600
  inb_S512x600_S512x600_0_0 : ∀ a, (![0, 0] : Fin 2 → Nat) a + S512x600.size a ≤ S512x600.size a
  h_S512x600 : 0 < S512x600.numel
  packedbf16_S512x600_S512x600_0_0 : (Rect.unit (s := S512x600) ![0, 0] S512x600.size inb_S512x600_S512x600_0_0).PackedRows (EltTy.packing .bf16)
  inb_S6x600_S6x600_0_0 : ∀ a, (![0, 0] : Fin 2 → Nat) a + S6x600.size a ≤ S6x600.size a
  h_S6x600 : 0 < S6x600.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S512x6 : S1x6.Broadcasts S512x6
  inb_S512x6_S512x6_0_0 : ∀ a, (![0, 0] : Fin 2 → Nat) a + S512x6.size a ≤ S512x6.size a
  h_S512x6 : 0 < S512x6.numel
  packedbf16_S512x6_S512x6_0_0 : (Rect.unit (s := S512x6) ![0, 0] S512x6.size inb_S512x6_S512x6_0_0).PackedRows (EltTy.packing .bf16)
  dot_S512x1024_S1000x1024_S512x1000_1_1_0_0_n_n_wf : DotDims.WF S512x1024 S1000x1024 S512x1000 [1] [1] [0] [0] [] []
  dot_S512x1000_S800x1000_S512x800_1_1_0_0_n_n_wf : DotDims.WF S512x1000 S800x1000 S512x800 [1] [1] [0] [0] [] []
  dot_S512x800_S400x800_S512x400_1_1_0_0_n_n_wf : DotDims.WF S512x800 S400x800 S512x400 [1] [1] [0] [0] [] []
  dot_S512x400_S600x400_S512x600_1_1_0_0_n_n_wf : DotDims.WF S512x400 S600x400 S512x600 [1] [1] [0] [0] [] []
  dot_S512x600_S6x600_S512x6_1_1_0_0_n_n_wf : DotDims.WF S512x600 S6x600 S512x6 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S1000x1024.size a
  hwx0_1 : ∀ i : grid0.Coords, EltTy.bits .f32 = 32 ∨ (Rect.block (s := S1000x1024) S1000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S1000x1024.size a
  hwx0_3 : ∀ i : grid0.Coords, EltTy.bits .f32 = 32 ∨ (Rect.block (s := S1000x1024) S1000x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S800x1000.size a ≤ S800x1000.size a
  hwx0_4 : ∀ i : grid0.Coords, EltTy.bits .f32 = 32 ∨ (Rect.block (s := S800x1000) S800x1000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x800.size a ≤ S1x800.size a
  hwx0_5 : ∀ i : grid0.Coords, EltTy.bits .f32 = 32 ∨ (Rect.block (s := S1x800) S1x800.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S800x1000.size a ≤ S800x1000.size a
  hwx0_6 : ∀ i : grid0.Coords, EltTy.bits .f32 = 32 ∨ (Rect.block (s := S800x1000) S800x1000.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400x800.size a ≤ S400x800.size a
  hwx0_7 : ∀ i : grid0.Coords, EltTy.bits .f32 = 32 ∨ (Rect.block (s := S400x800) S400x800.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x400.size a ≤ S1x400.size a
  hwx0_8 : ∀ i : grid0.Coords, EltTy.bits .f32 = 32 ∨ (Rect.block (s := S1x400) S1x400.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400x800.size a ≤ S400x800.size a
  hwx0_9 : ∀ i : grid0.Coords, EltTy.bits .f32 = 32 ∨ (Rect.block (s := S400x800) S400x800.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S600x400.size a ≤ S600x400.size a
  hwx0_10 : ∀ i : grid0.Coords, EltTy.bits .f32 = 32 ∨ (Rect.block (s := S600x400) S600x400.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x600.size a ≤ S1x600.size a
  hwx0_11 : ∀ i : grid0.Coords, EltTy.bits .f32 = 32 ∨ (Rect.block (s := S1x600) S1x600.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S600x400.size a ≤ S600x400.size a
  hwx0_12 : ∀ i : grid0.Coords, EltTy.bits .f32 = 32 ∨ (Rect.block (s := S600x400) S600x400.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S6x600.size a ≤ S6x600.size a
  hwx0_13 : ∀ i : grid0.Coords, EltTy.bits .f32 = 32 ∨ (Rect.block (s := S6x600) S6x600.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x6.size a ≤ S1x6.size a
  hwx0_14 : ∀ i : grid0.Coords, EltTy.bits .f32 = 32 ∨ (Rect.block (s := S1x6) S1x6.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S6x600.size a ≤ S6x600.size a
  hwx0_15 : ∀ i : grid0.Coords, EltTy.bits .f32 = 32 ∨ (Rect.block (s := S6x600) S6x600.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x1000.size a ≤ S16384x1000.size a
  hwx0_16 : ∀ i : grid0.Coords, EltTy.bits .bf16 = 32 ∨ (Rect.block (s := S16384x1000) S512x1000.size (cc0_transform_16 i) (hinb0_16 i)).WholeWords (EltTy.packing .bf16)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x800.size a ≤ S16384x800.size a
  hwx0_17 : ∀ i : grid0.Coords, EltTy.bits .bf16 = 32 ∨ (Rect.block (s := S16384x800) S512x800.size (cc0_transform_17 i) (hinb0_17 i)).WholeWords (EltTy.packing .bf16)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x400.size a ≤ S16384x400.size a
  hwx0_18 : ∀ i : grid0.Coords, EltTy.bits .bf16 = 32 ∨ (Rect.block (s := S16384x400) S512x400.size (cc0_transform_18 i) (hinb0_18 i)).WholeWords (EltTy.packing .bf16)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x600.size a ≤ S16384x600.size a
  hwx0_19 : ∀ i : grid0.Coords, EltTy.bits .bf16 = 32 ∨ (Rect.block (s := S16384x600) S512x600.size (cc0_transform_19 i) (hinb0_19 i)).WholeWords (EltTy.packing .bf16)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x6.size a ≤ S16384x6.size a
  hwx0_20 : ∀ i : grid0.Coords, EltTy.bits .bf16 = 32 ∨ (Rect.block (s := S16384x6) S512x6.size (cc0_transform_20 i) (hinb0_20 i)).WholeWords (EltTy.packing .bf16)

variable [Facts₀]

def dot_S512x1024_S1000x1024_S512x1000_1_1_0_0_n_n : DotDims S512x1024 S1000x1024 S512x1000 where
  lhsContracting := [1]
  rhsContracting := [1]
  lhsNonContracting := [0]
  rhsNonContracting := [0]
  lhsBatch := []
  rhsBatch := []
  wf := dot_S512x1024_S1000x1024_S512x1000_1_1_0_0_n_n_wf
def dot_S512x1000_S800x1000_S512x800_1_1_0_0_n_n : DotDims S512x1000 S800x1000 S512x800 where
  lhsContracting := [1]
  rhsContracting := [1]
  lhsNonContracting := [0]
  rhsNonContracting := [0]
  lhsBatch := []
  rhsBatch := []
  wf := dot_S512x1000_S800x1000_S512x800_1_1_0_0_n_n_wf
def dot_S512x800_S400x800_S512x400_1_1_0_0_n_n : DotDims S512x800 S400x800 S512x400 where
  lhsContracting := [1]
  rhsContracting := [1]
  lhsNonContracting := [0]
  rhsNonContracting := [0]
  lhsBatch := []
  rhsBatch := []
  wf := dot_S512x800_S400x800_S512x400_1_1_0_0_n_n_wf
def dot_S512x400_S600x400_S512x600_1_1_0_0_n_n : DotDims S512x400 S600x400 S512x600 where
  lhsContracting := [1]
  rhsContracting := [1]
  lhsNonContracting := [0]
  rhsNonContracting := [0]
  lhsBatch := []
  rhsBatch := []
  wf := dot_S512x400_S600x400_S512x600_1_1_0_0_n_n_wf
def dot_S512x600_S6x600_S512x6_1_1_0_0_n_n : DotDims S512x600 S6x600 S512x6 where
  lhsContracting := [1]
  rhsContracting := [1]
  lhsNonContracting := [0]
  rhsNonContracting := [0]
  lhsBatch := []
  rhsBatch := []
  wf := dot_S512x600_S6x600_S512x6_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1000x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S800x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x800.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S800x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S400x800.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S400x800.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S600x400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x600.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S600x400.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S6x600.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v4) S1x6.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S6x600.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5_0) S512x1000.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v5_1) S512x800.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v5_2) S512x400.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v5_3) S512x600.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v5_4) S512x6.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1000x1024 : Shape := ⟨2, ![1000, 1024]⟩
abbrev S1000 : Shape := ⟨1, ![1000]⟩
abbrev S800x1000 : Shape := ⟨2, ![800, 1000]⟩
abbrev S800 : Shape := ⟨1, ![800]⟩
abbrev S400x800 : Shape := ⟨2, ![400, 800]⟩
abbrev S400 : Shape := ⟨1, ![400]⟩
abbrev S600x400 : Shape := ⟨2, ![600, 400]⟩
abbrev S600 : Shape := ⟨1, ![600]⟩
abbrev S6x600 : Shape := ⟨2, ![6, 600]⟩
abbrev S6 : Shape := ⟨1, ![6]⟩
abbrev S1024x1000 : Shape := ⟨2, ![1024, 1000]⟩
abbrev S16384x1000 : Shape := ⟨2, ![16384, 1000]⟩
abbrev S1x1000 : Shape := ⟨2, ![1, 1000]⟩
abbrev S_ : Shape := ⟨0, ![]⟩
abbrev S1000x800 : Shape := ⟨2, ![1000, 800]⟩
abbrev S16384x800 : Shape := ⟨2, ![16384, 800]⟩
abbrev S1x800 : Shape := ⟨2, ![1, 800]⟩
abbrev S800x400 : Shape := ⟨2, ![800, 400]⟩
abbrev S16384x400 : Shape := ⟨2, ![16384, 400]⟩
abbrev S1x400 : Shape := ⟨2, ![1, 400]⟩
abbrev S400x600 : Shape := ⟨2, ![400, 600]⟩
abbrev S16384x600 : Shape := ⟨2, ![16384, 600]⟩
abbrev S1x600 : Shape := ⟨2, ![1, 600]⟩
abbrev S600x6 : Shape := ⟨2, ![600, 6]⟩
abbrev S16384x6 : Shape := ⟨2, ![16384, 6]⟩
abbrev S1x6 : Shape := ⟨2, ![1, 6]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S1000, .f32⟩
  | .hbm, ⟨3, _⟩ => ⟨S1000x1024, .f32⟩
  | .hbm, ⟨4, _⟩ => ⟨S800x1000, .f32⟩
  | .hbm, ⟨5, _⟩ => ⟨S800, .f32⟩
  | .hbm, ⟨6, _⟩ => ⟨S800x1000, .f32⟩
  | .hbm, ⟨7, _⟩ => ⟨S400x800, .f32⟩
  | .hbm, ⟨8, _⟩ => ⟨S400, .f32⟩
  | .hbm, ⟨9, _⟩ => ⟨S400x800, .f32⟩
  | .hbm, ⟨10, _⟩ => ⟨S600x400, .f32⟩
  | .hbm, ⟨11, _⟩ => ⟨S600, .f32⟩
  | .hbm, ⟨12, _⟩ => ⟨S600x400, .f32⟩
  | .hbm, ⟨13, _⟩ => ⟨S6x600, .f32⟩
  | .hbm, ⟨14, _⟩ => ⟨S6, .f32⟩
  | .hbm, ⟨15, _⟩ => ⟨S6x600, .f32⟩
  | .hbm, ⟨16, _⟩ => ⟨S1000x1024, .f32⟩
  | .hbm, ⟨17, _⟩ => ⟨S1024x1000, .f32⟩
  | .hbm, ⟨18, _⟩ => ⟨S16384x1000, .f32⟩
  | .hbm, ⟨19, _⟩ => ⟨S1x1000, .f32⟩
  | .hbm, ⟨20, _⟩ => ⟨S16384x1000, .f32⟩
  | .hbm, ⟨21, _⟩ => ⟨S16384x1000, .f32⟩
  | .hbm, ⟨22, _⟩ => ⟨S_, .f32⟩
  | .hbm, ⟨23, _⟩ => ⟨S16384x1000, .f32⟩
  | .hbm, ⟨24, _⟩ => ⟨S16384x1000, .f32⟩
  | .hbm, ⟨25, _⟩ => ⟨S800x1000, .f32⟩
  | .hbm, ⟨26, _⟩ => ⟨S1000x800, .f32⟩
  | .hbm, ⟨27, _⟩ => ⟨S16384x800, .f32⟩
  | .hbm, ⟨28, _⟩ => ⟨S1x800, .f32⟩
  | .hbm, ⟨29, _⟩ => ⟨S16384x800, .f32⟩
  | .hbm, ⟨30, _⟩ => ⟨S16384x800, .f32⟩
  | .hbm, ⟨31, _⟩ => ⟨S_, .f32⟩
  | .hbm, ⟨32, _⟩ => ⟨S16384x800, .f32⟩
  | .hbm, ⟨33, _⟩ => ⟨S16384x800, .f32⟩
  | .hbm, ⟨34, _⟩ => ⟨S400x800, .f32⟩
  | .hbm, ⟨35, _⟩ => ⟨S800x400, .f32⟩
  | .hbm, ⟨36, _⟩ => ⟨S16384x400, .f32⟩
  | .hbm, ⟨37, _⟩ => ⟨S1x400, .f32⟩
  | .hbm, ⟨38, _⟩ => ⟨S16384x400, .f32⟩
  | .hbm, ⟨39, _⟩ => ⟨S16384x400, .f32⟩
  | .hbm, ⟨40, _⟩ => ⟨S_, .f32⟩
  | .hbm, ⟨41, _⟩ => ⟨S16384x400, .f32⟩
  | .hbm, ⟨42, _⟩ => ⟨S16384x400, .f32⟩
  | .hbm, ⟨43, _⟩ => ⟨S600x400, .f32⟩
  | .hbm, ⟨44, _⟩ => ⟨S400x600, .f32⟩
  | .hbm, ⟨45, _⟩ => ⟨S16384x600, .f32⟩
  | .hbm, ⟨46, _⟩ => ⟨S1x600, .f32⟩
  | .hbm, ⟨47, _⟩ => ⟨S16384x600, .f32⟩
  | .hbm, ⟨48, _⟩ => ⟨S16384x600, .f32⟩
  | .hbm, ⟨49, _⟩ => ⟨S6x600, .f32⟩
  | .hbm, ⟨50, _⟩ => ⟨S600x6, .f32⟩
  | .hbm, ⟨51, _⟩ => ⟨S16384x6, .f32⟩
  | .hbm, ⟨52, _⟩ => ⟨S1x6, .f32⟩
  | .hbm, ⟨53, _⟩ => ⟨S16384x6, .f32⟩
  | .hbm, ⟨54, _⟩ => ⟨S16384x6, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_cst : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_cst : Ref sig .tc := ⟨.hbm, 31, rfl⟩
abbrev main_call1_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call2_cst : Ref sig .tc := ⟨.hbm, 40, rfl⟩
abbrev main_call2_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  transposes_S1000x1024_S1024x1000_1_0 : S1000x1024.Transposes [1, 0] S1024x1000
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  transposes_S800x1000_S1000x800_1_0 : S800x1000.Transposes [1, 0] S1000x800
  bcast_S800_S1x800_1 : S800.BroadcastsInDim S1x800 (![1] : Fin 1 → Fin S1x800.rank)
  bcast_S1x800_S16384x800_0_1 : S1x800.BroadcastsInDim S16384x800 (![0, 1] : Fin 2 → Fin S16384x800.rank)
  bcast_S_S16384x800 : S_.BroadcastsInDim S16384x800 (![] : Fin 0 → Fin S16384x800.rank)
  transposes_S400x800_S800x400_1_0 : S400x800.Transposes [1, 0] S800x400
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  bcast_S_S16384x400 : S_.BroadcastsInDim S16384x400 (![] : Fin 0 → Fin S16384x400.rank)
  transposes_S600x400_S400x600_1_0 : S600x400.Transposes [1, 0] S400x600
  bcast_S600_S1x600_1 : S600.BroadcastsInDim S1x600 (![1] : Fin 1 → Fin S1x600.rank)
  bcast_S1x600_S16384x600_0_1 : S1x600.BroadcastsInDim S16384x600 (![0, 1] : Fin 2 → Fin S16384x600.rank)
  transposes_S6x600_S600x6_1_0 : S6x600.Transposes [1, 0] S600x6
  bcast_S6_S1x6_1 : S6.BroadcastsInDim S1x6 (![1] : Fin 1 → Fin S1x6.rank)
  bcast_S1x6_S16384x6_0_1 : S1x6.BroadcastsInDim S16384x6 (![0, 1] : Fin 2 → Fin S16384x6.rank)
  dot_S16384x1024_S1024x1000_S16384x1000_1_0_0_1_n_n_wf : DotDims.WF S16384x1024 S1024x1000 S16384x1000 [1] [0] [0] [1] [] []
  dot_S16384x1000_S1000x800_S16384x800_1_0_0_1_n_n_wf : DotDims.WF S16384x1000 S1000x800 S16384x800 [1] [0] [0] [1] [] []
  dot_S16384x800_S800x400_S16384x400_1_0_0_1_n_n_wf : DotDims.WF S16384x800 S800x400 S16384x400 [1] [0] [0] [1] [] []
  dot_S16384x400_S400x600_S16384x600_1_0_0_1_n_n_wf : DotDims.WF S16384x400 S400x600 S16384x600 [1] [0] [0] [1] [] []
  dot_S16384x600_S600x6_S16384x6_1_0_0_1_n_n_wf : DotDims.WF S16384x600 S600x6 S16384x6 [1] [0] [0] [1] [] []

variable [Facts₀]

def dot_S16384x1024_S1024x1000_S16384x1000_1_0_0_1_n_n : DotDims S16384x1024 S1024x1000 S16384x1000 where
  lhsContracting := [1]
  rhsContracting := [0]
  lhsNonContracting := [0]
  rhsNonContracting := [1]
  lhsBatch := []
  rhsBatch := []
  wf := dot_S16384x1024_S1024x1000_S16384x1000_1_0_0_1_n_n_wf
def dot_S16384x1000_S1000x800_S16384x800_1_0_0_1_n_n : DotDims S16384x1000 S1000x800 S16384x800 where
  lhsContracting := [1]
  rhsContracting := [0]
  lhsNonContracting := [0]
  rhsNonContracting := [1]
  lhsBatch := []
  rhsBatch := []
  wf := dot_S16384x1000_S1000x800_S16384x800_1_0_0_1_n_n_wf
def dot_S16384x800_S800x400_S16384x400_1_0_0_1_n_n : DotDims S16384x800 S800x400 S16384x400 where
  lhsContracting := [1]
  rhsContracting := [0]
  lhsNonContracting := [0]
  rhsNonContracting := [1]
  lhsBatch := []
  rhsBatch := []
  wf := dot_S16384x800_S800x400_S16384x400_1_0_0_1_n_n_wf
def dot_S16384x400_S400x600_S16384x600_1_0_0_1_n_n : DotDims S16384x400 S400x600 S16384x600 where
  lhsContracting := [1]
  rhsContracting := [0]
  lhsNonContracting := [0]
  rhsNonContracting := [1]
  lhsBatch := []
  rhsBatch := []
  wf := dot_S16384x400_S400x600_S16384x600_1_0_0_1_n_n_wf
def dot_S16384x600_S600x6_S16384x6_1_0_0_1_n_n : DotDims S16384x600 S600x6 S16384x6 where
  lhsContracting := [1]
  rhsContracting := [0]
  lhsNonContracting := [0]
  rhsNonContracting := [1]
  lhsBatch := []
  rhsBatch := []
  wf := dot_S16384x600_S600x6_S16384x6_1_0_0_1_n_n_wf

class Facts : Prop extends Facts₀ where

variable [Facts]
-- ==== Proof.LibMatmulRows.lean ====
/-
  A matrix product that contracts the LAST axis of both operands (rows of the left against rows of the right, x·Wᵀ),
  accumulated into the zero matrix and read at one entry at the ideal values: the sum over the contracted coordinate
  of the products of the two operands' entries, Σ_c A[a,c]·B[b,c].
-/
import Idealize.ShloMosaic.PureOps.Ideal.Laws
import Idealize.ShloMosaic.Lib.ValueIdx

noncomputable section

open scoped BigOperators

namespace MatmulRows

open Idealize.ShloMosaic Idealize.ShloMosaic.ValueIdx

/-- The dimension numbers of x·Wᵀ: both operands contract axis 1, each keeps axis 0, no batch axis. -/
abbrev rowsDims (m k n : Nat)
    (wf : DotDims.WF (⟨2, ![m, k]⟩ : Shape) ⟨2, ![n, k]⟩ ⟨2, ![m, n]⟩ [1] [1] [0] [0] [] []) :
    DotDims (⟨2, ![m, k]⟩ : Shape) ⟨2, ![n, k]⟩ ⟨2, ![m, n]⟩ where
  lhsContracting := [1]
  rhsContracting := [1]
  lhsNonContracting := [0]
  rhsNonContracting := [0]
  lhsBatch := []
  rhsBatch := []
  wf := wf

/-- x·Wᵀ into the zero accumulator at entry (a, b) is Σ_c A[a,c]·B[b,c]. -/
theorem matmul_rows_zero_apply {m k n : Nat} {φ₁ φ₂ : FTy}
    (wf : DotDims.WF (⟨2, ![m, k]⟩ : Shape) ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (F := Ideal) (rowsDims m k n wf) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (rowsDims m k n wf) k rfl rfl).symm]
  refine Finset.sum_congr rfl fun c _ => ?_
  have hc := contrEquiv1_symm_val (rowsDims m k n wf) k rfl rfl c
  have hl : (rowsDims m k n wf).lhsIdx (ix2 a b) ((contrEquiv1 _ k rfl rfl).symm c) = ix2 a c := by
    funext ax; apply Fin.ext
    match ax with
    | ⟨0, _⟩ => simp [DotDims.lhsIdx, rowsDims]; rfl
    | ⟨1, _⟩ => simp [DotDims.lhsIdx, rowsDims]; exact hc
  have hr : (rowsDims m k n wf).rhsIdx (ix2 a b) ((contrEquiv1 _ k rfl rfl).symm c) = ix2 b c := by
    funext ax; apply Fin.ext
    match ax with
    | ⟨0, _⟩ => simp [DotDims.rhsIdx, rowsDims]; rfl
    | ⟨1, _⟩ => simp [DotDims.rhsIdx, rowsDims]; exact hc
  rw [hl, hr]

end MatmulRows

end
-- ==== Proof.LibMaskedDense.lean ====
/-
  A masked dense layer, and its rectified form, on one row of a batch — and the same layer as a kernel body spells
  it on a whole tile, read at an entry, at arbitrary sizes on the extended reals.

  A masked dense layer sends a row r (length K) to the row whose entry j is Σ_c r c · (W j c · M j c) + b j: the
  weights W multiplied entry by entry by the mask M, applied to r as a transposed product, plus the bias. The body
  form is an accumulating matrix product that contracts the last axis of both operands (the tile against W∘M), into
  the zero matrix, plus the bias held as a one-row matrix broadcast over the tile's rows, optionally followed by a
  maximum with the zero splat; changes of float format on the way are the identity on the extended reals. Read at
  entry (p, j) it is the row layer applied to row p of the tile, at j.
-/
import Idealize.ShloMosaic.PureOps.Ideal.Laws
import Idealize.ShloMosaic.Lib.ValueIdx
import Idealize.ShloMosaic.Lib.ValueLayout
import proofs.«103790_g54752243090113_cont_9to1c4b_246_27_alg».proof.Proof.LibMatmulRows

noncomputable section

open scoped BigOperators

namespace MaskedMlp

open Idealize.ShloMosaic Idealize.ShloMosaic.ValueIdx

/-- One masked dense layer on a row: entry j is Σ_c r c · (W j c · M j c) + b j. -/
def dense {K N : ℕ} (W M : Fin N → Fin K → EReal) (b : Fin N → EReal) (r : Fin K → EReal) : Fin N → EReal :=
  fun j => (∑ c : Fin K, r c * (W j c * M j c)) + b j

/-- The rectifier on a row. -/
def relu {N : ℕ} (r : Fin N → EReal) : Fin N → EReal := fun j => max (r j) 0

/-- The entries of a matrix, of a vector, and of a one-row matrix, by coordinates. -/
abbrev mat {a b : ℕ} (x : (⟨2, ![a, b]⟩ : Shape).Idx → EReal) : Fin a → Fin b → EReal := fun j c => x (ix2 j c)
abbrev vec {a : ℕ} (x : (⟨1, ![a]⟩ : Shape).Idx → EReal) : Fin a → EReal := fun j => x (ix1 j)
abbrev row1 {a : ℕ} (x : (⟨2, ![1, a]⟩ : Shape).Idx → EReal) : Fin a → EReal := fun j => x (ix2 (0 : Fin 1) j)

/-- A row function applied to every row of a matrix of n rows: the result array, entry by entry. -/
def rows {n K N : ℕ} (f : (Fin K → EReal) → Fin N → EReal) (x : (⟨2, ![n, K]⟩ : Shape).Idx → EReal) :
    (⟨2, ![n, N]⟩ : Shape).Idx → EReal :=
  fun i => f (fun c => x (ix2 (i 0) c)) (i 1)

theorem rows_apply {n K N : ℕ} (f : (Fin K → EReal) → Fin N → EReal) (x : (⟨2, ![n, K]⟩ : Shape).Idx → EReal)
    (p : Fin n) (j : Fin N) : rows f x (ix2 p j) = f (fun c => x (ix2 p c)) j := rfl

/-- One dense layer as the kernel body spells it, read at entry (p, j): the product of the rows of A against the
    rows of the masked weights accumulated into zero, plus the one-row bias broadcast over the rows. Changes of
    float format are the identity on the extended reals. -/
theorem body_dense_apply {n K N : ℕ}
    (wf : DotDims.WF (⟨2, ![n, K]⟩ : Shape) ⟨2, ![N, K]⟩ ⟨2, ![n, N]⟩ [1] [1] [0] [0] [] [])
    (hc : (⟨2, ![1, N]⟩ : Shape).ShapeCasts ⟨2, ![1, N]⟩) (hb : (⟨2, ![1, N]⟩ : Shape).Broadcasts ⟨2, ![n, N]⟩)
    (h1 h2 : FTy.bf16.bits < FTy.f32.bits)
    (A : FVec Ideal ⟨2, ![n, K]⟩ .f32) (W M : FVec Ideal ⟨2, ![N, K]⟩ .f32) (b : FVec Ideal ⟨2, ![1, N]⟩ .f32)
    (p : Fin n) (j : Fin N) :
    addf (matmul (F := Ideal) (MatmulRows.rowsDims n K N wf) none (truncf .bf16 A h1) (truncf .bf16 (mulf W M) h2)
        (constant (F := Ideal) ⟨2, ![n, N]⟩ .f32 0x00000000#32))
      (broadcastTo ⟨2, ![n, N]⟩ (shapeCast ⟨2, ![1, N]⟩ b hc) hb) (ix2 p j)
      = dense (mat W) (mat M) (row1 b) (fun c => A (ix2 p c)) j := by
  rw [addf_apply, MatmulRows.matmul_rows_zero_apply, broadcastTo_1b_ab_apply, shapeCast_self]
  rfl

/-- The same layer followed by the rectifier, spelt as a maximum with the zero splat. -/
theorem body_relu_dense_apply {n K N : ℕ}
    (wf : DotDims.WF (⟨2, ![n, K]⟩ : Shape) ⟨2, ![N, K]⟩ ⟨2, ![n, N]⟩ [1] [1] [0] [0] [] [])
    (hc : (⟨2, ![1, N]⟩ : Shape).ShapeCasts ⟨2, ![1, N]⟩) (hb : (⟨2, ![1, N]⟩ : Shape).Broadcasts ⟨2, ![n, N]⟩)
    (h1 h2 : FTy.bf16.bits < FTy.f32.bits)
    (A : FVec Ideal ⟨2, ![n, K]⟩ .f32) (W M : FVec Ideal ⟨2, ![N, K]⟩ .f32) (b : FVec Ideal ⟨2, ![1, N]⟩ .f32)
    (p : Fin n) (j : Fin N) :
    maximumf (addf (matmul (F := Ideal) (MatmulRows.rowsDims n K N wf) none (truncf .bf16 A h1) (truncf .bf16 (mulf W M) h2)
        (constant (F := Ideal) ⟨2, ![n, N]⟩ .f32 0x00000000#32))
      (broadcastTo ⟨2, ![n, N]⟩ (shapeCast ⟨2, ![1, N]⟩ b hc) hb))
      (broadcast ⟨2, ![n, N]⟩ (Scalar.ofBits (F := Ideal) .f32 0x00000000#32)) (ix2 p j)
      = relu (dense (mat W) (mat M) (row1 b) (fun c => A (ix2 p c))) j := by
  rw [maximumf_apply, body_dense_apply wf hc hb h1 h2 A W M b p j]
  show max _ (Ideal.ofBits .f32 0x00000000#32) = _
  rw [Ideal.ofBits_zero_f32]
  rfl

end MaskedMlp

end
-- ==== Proof.RowNet.lean ====
/-
  A five-layer masked multilayer perceptron, one input row at a time, on the extended reals.

  The network is three rectified masked dense layers followed by two plain ones (MaskedMlp.dense, MaskedMlp.relu),
  of widths 1024 → 1000 → 800 → 400 → 600 → 6. Each of its five intermediate rows is a function of the input row
  alone, so the whole result arrays are these row functions applied to every row of the input matrix
  (MaskedMlp.rows).
-/
import proofs.«103790_g54752243090113_cont_9to1c4b_246_27_alg».proof.Proof.LibMaskedDense

noncomputable section

namespace MaskedMlp

open Idealize.ShloMosaic Idealize.ShloMosaic.ValueIdx

/-- The fifteen parameter arrays of the network: per layer the weights, the mask and the bias. -/
structure Params where
  W1 : Fin 1000 → Fin 1024 → EReal
  M1 : Fin 1000 → Fin 1024 → EReal
  b1 : Fin 1000 → EReal
  W2 : Fin 800 → Fin 1000 → EReal
  M2 : Fin 800 → Fin 1000 → EReal
  b2 : Fin 800 → EReal
  W3 : Fin 400 → Fin 800 → EReal
  M3 : Fin 400 → Fin 800 → EReal
  b3 : Fin 400 → EReal
  W4 : Fin 600 → Fin 400 → EReal
  M4 : Fin 600 → Fin 400 → EReal
  b4 : Fin 600 → EReal
  W5 : Fin 6 → Fin 600 → EReal
  M5 : Fin 6 → Fin 600 → EReal
  b5 : Fin 6 → EReal

/-- The parameters read off the fifteen argument arrays: matrices and vectors by their entries. -/
def argParams (w1 m1 : (⟨2, ![1000, 1024]⟩ : Shape).Idx → EReal) (c1 : (⟨1, ![1000]⟩ : Shape).Idx → EReal)
    (w2 m2 : (⟨2, ![800, 1000]⟩ : Shape).Idx → EReal) (c2 : (⟨1, ![800]⟩ : Shape).Idx → EReal)
    (w3 m3 : (⟨2, ![400, 800]⟩ : Shape).Idx → EReal) (c3 : (⟨1, ![400]⟩ : Shape).Idx → EReal)
    (w4 m4 : (⟨2, ![600, 400]⟩ : Shape).Idx → EReal) (c4 : (⟨1, ![600]⟩ : Shape).Idx → EReal)
    (w5 m5 : (⟨2, ![6, 600]⟩ : Shape).Idx → EReal) (c5 : (⟨1, ![6]⟩ : Shape).Idx → EReal) : Params :=
  ⟨mat w1, mat m1, vec c1, mat w2, mat m2, vec c2, mat w3, mat m3, vec c3, mat w4, mat m4, vec c4, mat w5, mat m5, vec c5⟩

/-- The five intermediate rows of the network as functions of the input row. -/
def net1 (P : Params) (r : Fin 1024 → EReal) : Fin 1000 → EReal := relu (dense P.W1 P.M1 P.b1 r)
def net2 (P : Params) (r : Fin 1024 → EReal) : Fin 800 → EReal := relu (dense P.W2 P.M2 P.b2 (net1 P r))
def net3 (P : Params) (r : Fin 1024 → EReal) : Fin 400 → EReal := relu (dense P.W3 P.M3 P.b3 (net2 P r))
def net4 (P : Params) (r : Fin 1024 → EReal) : Fin 600 → EReal := dense P.W4 P.M4 P.b4 (net3 P r)
def net5 (P : Params) (r : Fin 1024 → EReal) : Fin 6 → EReal := dense P.W5 P.M5 P.b5 (net4 P r)

end MaskedMlp

end
-- ==== Proof.BodyRows.lean ====
/-
  The arithmetic of the kernel body, one row of the batch tile at a time.

  The body computes, from the tile x of 512 input rows and the five layers' weights, masks and one-row biases as it
  loads them, the five matrices it stores: the first three layers rectified, the last two plain. Each stored
  matrix, read at entry (p, j), is the corresponding row function of the network (MaskedMlp.net1 … net5) applied to
  row p of x, at j: a layer's matrix product contracts the last axis of both operands, so entry (p, j) only meets row
  p of the previous layer's result, and the bias row is the same for every p.
-/
import proofs.«103790_g54752243090113_cont_9to1c4b_246_27_alg».proof.Proof.Gen.KernelIdeal.Skeleton
import proofs.«103790_g54752243090113_cont_9to1c4b_246_27_alg».proof.Proof.RowNet

noncomputable section

namespace Cert.KernelIdeal.BodyRows

open Cert.KernelIdeal Cert.KernelIdeal.Gen Idealize.ShloMosaic Idealize.ShloMosaic.ValueIdx MaskedMlp

/-! ## One layer at a time, at an entry -/

/-- The first layer, rectified: entry (p, j) from row p of the tile. -/
theorem layer1_apply (x : Vec Ideal S512x1024 .f32) (w1 m1 : Vec Ideal S1000x1024 .f32) (c1 : Vec Ideal S1x1000 .f32)
    (p : Fin 512) (j : Fin 1000) :
    k0_pay1 (F := Ideal) x w1 m1 c1 (ix2 p j) = relu (dense (mat w1) (mat m1) (row1 c1) (fun c => x (ix2 p c))) j :=
  body_relu_dense_apply _ _ _ _ _ x w1 m1 c1 p j

/-- The second layer, rectified: entry (p, j) from row p of the first layer's result. -/
theorem layer2_apply (x : Vec Ideal S512x1024 .f32) (w1 m1 : Vec Ideal S1000x1024 .f32) (c1 : Vec Ideal S1x1000 .f32)
    (w2 m2 : Vec Ideal S800x1000 .f32) (c2 : Vec Ideal S1x800 .f32) (p : Fin 512) (j : Fin 800) :
    k0_pay3 (F := Ideal) x w1 m1 c1 w2 m2 c2 (ix2 p j)
      = relu (dense (mat w2) (mat m2) (row1 c2) (fun c => k0_pay1 (F := Ideal) x w1 m1 c1 (ix2 p c))) j :=
  body_relu_dense_apply _ _ _ _ _ (k0_pay1 (F := Ideal) x w1 m1 c1) w2 m2 c2 p j

/-- The third layer, rectified: entry (p, j) from row p of the second layer's result h2. -/
theorem layer3_apply (h2 : FVec Ideal S512x800 .f32) (w3 m3 : Vec Ideal S400x800 .f32) (c3 : Vec Ideal S1x400 .f32)
    (p : Fin 512) (j : Fin 400) :
    k0_pay5 (F := Ideal) h2 w3 m3 c3 (ix2 p j) = relu (dense (mat w3) (mat m3) (row1 c3) (fun c => h2 (ix2 p c))) j :=
  body_relu_dense_apply _ _ _ _ _ h2 w3 m3 c3 p j

/-- The fourth layer, not rectified: entry (p, j) from row p of the third layer's result. -/
theorem layer4_apply (h2 : FVec Ideal S512x800 .f32) (w3 m3 : Vec Ideal S400x800 .f32) (c3 : Vec Ideal S1x400 .f32)
    (w4 m4 : Vec Ideal S600x400 .f32) (c4 : Vec Ideal S1x600 .f32) (p : Fin 512) (j : Fin 600) :
    k0_pay7 (F := Ideal) h2 w3 m3 c3 w4 m4 c4 (ix2 p j)
      = dense (mat w4) (mat m4) (row1 c4) (fun c => k0_pay5 (F := Ideal) h2 w3 m3 c3 (ix2 p c)) j :=
  body_dense_apply _ _ _ _ _ (k0_pay5 (F := Ideal) h2 w3 m3 c3) w4 m4 c4 p j

/-- The fifth layer, not rectified: entry (p, j) from row p of the fourth layer's result. -/
theorem layer5_apply (h2 : FVec Ideal S512x800 .f32) (w3 m3 : Vec Ideal S400x800 .f32) (c3 : Vec Ideal S1x400 .f32)
    (w4 m4 : Vec Ideal S600x400 .f32) (c4 : Vec Ideal S1x600 .f32) (w5 m5 : Vec Ideal S6x600 .f32) (c5 : Vec Ideal S1x6 .f32)
    (p : Fin 512) (j : Fin 6) :
    k0_pay9 (F := Ideal) h2 w3 m3 c3 w4 m4 c4 w5 m5 c5 (ix2 p j)
      = dense (mat w5) (mat m5) (row1 c5) (fun c => k0_pay7 (F := Ideal) h2 w3 m3 c3 w4 m4 c4 (ix2 p c)) j :=
  body_dense_apply _ _ _ _ _ (k0_pay7 (F := Ideal) h2 w3 m3 c3 w4 m4 c4) w5 m5 c5 p j

/-! ## The five stored matrices as the network's row functions -/

/-- The network's parameters read off the fifteen blocks the body loads: matrices by their entries, biases by the
    entries of their one row. -/
def blockParams (w1 m1 : Vec Ideal S1000x1024 .f32) (c1 : Vec Ideal S1x1000 .f32)
    (w2 m2 : Vec Ideal S800x1000 .f32) (c2 : Vec Ideal S1x800 .f32)
    (w3 m3 : Vec Ideal S400x800 .f32) (c3 : Vec Ideal S1x400 .f32)
    (w4 m4 : Vec Ideal S600x400 .f32) (c4 : Vec Ideal S1x600 .f32)
    (w5 m5 : Vec Ideal S6x600 .f32) (c5 : Vec Ideal S1x6 .f32) : Params :=
  ⟨mat w1, mat m1, row1 c1, mat w2, mat m2, row1 c2, mat w3, mat m3, row1 c3, mat w4, mat m4, row1 c4, mat w5, mat m5, row1 c5⟩

variable (x : Vec Ideal S512x1024 .f32) (w1 m1 : Vec Ideal S1000x1024 .f32) (c1 : Vec Ideal S1x1000 .f32)
  (w2 m2 : Vec Ideal S800x1000 .f32) (c2 : Vec Ideal S1x800 .f32)
  (w3 m3 : Vec Ideal S400x800 .f32) (c3 : Vec Ideal S1x400 .f32)
  (w4 m4 : Vec Ideal S600x400 .f32) (c4 : Vec Ideal S1x600 .f32)
  (w5 m5 : Vec Ideal S6x600 .f32) (c5 : Vec Ideal S1x6 .f32)

local notation "𝑃" => blockParams w1 m1 c1 w2 m2 c2 w3 m3 c3 w4 m4 c4 w5 m5 c5

/-- Row p of the first layer's result. -/
theorem h1_row (p : Fin 512) :
    (fun c => k0_pay1 (F := Ideal) x w1 m1 c1 (ix2 p c)) = net1 𝑃 (fun c => x (ix2 p c)) :=
  funext fun c => layer1_apply x w1 m1 c1 p c

/-- Row p of the second layer's result. -/
theorem h2_row (p : Fin 512) :
    (fun c => k0_pay3 (F := Ideal) x w1 m1 c1 w2 m2 c2 (ix2 p c)) = net2 𝑃 (fun c => x (ix2 p c)) :=
  funext fun c => (layer2_apply x w1 m1 c1 w2 m2 c2 p c).trans
    (congrArg (fun r => relu (dense (mat w2) (mat m2) (row1 c2) r) c) (h1_row x w1 m1 c1 w2 m2 c2 w3 m3 c3 w4 m4 c4 w5 m5 c5 p))

/-- Row p of the third layer's result, the second layer's being the tile's h2. -/
theorem h3_row (p : Fin 512) :
    (fun c => k0_pay5 (F := Ideal) (k0_pay3 (F := Ideal) x w1 m1 c1 w2 m2 c2) w3 m3 c3 (ix2 p c)) = net3 𝑃 (fun c => x (ix2 p c)) :=
  funext fun c => (layer3_apply (k0_pay3 (F := Ideal) x w1 m1 c1 w2 m2 c2) w3 m3 c3 p c).trans
    (congrArg (fun r => relu (dense (mat w3) (mat m3) (row1 c3) r) c) (h2_row x w1 m1 c1 w2 m2 c2 w3 m3 c3 w4 m4 c4 w5 m5 c5 p))

/-- Row p of the fourth layer's result. -/
theorem h4_row (p : Fin 512) :
    (fun c => k0_pay7 (F := Ideal) (k0_pay3 (F := Ideal) x w1 m1 c1 w2 m2 c2) w3 m3 c3 w4 m4 c4 (ix2 p c)) = net4 𝑃 (fun c => x (ix2 p c)) :=
  funext fun c => (layer4_apply (k0_pay3 (F := Ideal) x w1 m1 c1 w2 m2 c2) w3 m3 c3 w4 m4 c4 p c).trans
    (congrArg (fun r => dense (mat w4) (mat m4) (row1 c4) r c) (h3_row x w1 m1 c1 w2 m2 c2 w3 m3 c3 w4 m4 c4 w5 m5 c5 p))

/-- Row p of the fifth layer's result. -/
theorem h5_row (p : Fin 512) :
    (fun c => k0_pay9 (F := Ideal) (k0_pay3 (F := Ideal) x w1 m1 c1 w2 m2 c2) w3 m3 c3 w4 m4 c4 w5 m5 c5 (ix2 p c)) = net5 𝑃 (fun c => x (ix2 p c)) :=
  funext fun c => (layer5_apply (k0_pay3 (F := Ideal) x w1 m1 c1 w2 m2 c2) w3 m3 c3 w4 m4 c4 w5 m5 c5 p c).trans
    (congrArg (fun r => dense (mat w5) (mat m5) (row1 c5) r c) (h4_row x w1 m1 c1 w2 m2 c2 w3 m3 c3 w4 m4 c4 w5 m5 c5 p))

/-- The five matrices the body stores (a change of float format is the identity here), each as its row function on
    every row of the tile. -/
theorem store1 : k0_pay2 (F := Ideal) x w1 m1 c1 = rows (net1 𝑃) x :=
  funext fun y => by
    obtain ⟨p, q, rfl⟩ : ∃ (p : Fin 512) (q : Fin 1000), y = ix2 p q := ⟨y 0, y 1, eq_ix2 y⟩
    exact congrFun (h1_row x w1 m1 c1 w2 m2 c2 w3 m3 c3 w4 m4 c4 w5 m5 c5 p) q

theorem store2 : k0_pay4 (F := Ideal) x w1 m1 c1 w2 m2 c2 = rows (net2 𝑃) x :=
  funext fun y => by
    obtain ⟨p, q, rfl⟩ : ∃ (p : Fin 512) (q : Fin 800), y = ix2 p q := ⟨y 0, y 1, eq_ix2 y⟩
    exact congrFun (h2_row x w1 m1 c1 w2 m2 c2 w3 m3 c3 w4 m4 c4 w5 m5 c5 p) q

theorem store3 : k0_pay6 (F := Ideal) (k0_pay3 (F := Ideal) x w1 m1 c1 w2 m2 c2) w3 m3 c3 = rows (net3 𝑃) x :=
  funext fun y => by
    obtain ⟨p, q, rfl⟩ : ∃ (p : Fin 512) (q : Fin 400), y = ix2 p q := ⟨y 0, y 1, eq_ix2 y⟩
    exact congrFun (h3_row x w1 m1 c1 w2 m2 c2 w3 m3 c3 w4 m4 c4 w5 m5 c5 p) q

theorem store4 : k0_pay8 (F := Ideal) (k0_pay3 (F := Ideal) x w1 m1 c1 w2 m2 c2) w3 m3 c3 w4 m4 c4 = rows (net4 𝑃) x :=
  funext fun y => by
    obtain ⟨p, q, rfl⟩ : ∃ (p : Fin 512) (q : Fin 600), y = ix2 p q := ⟨y 0, y 1, eq_ix2 y⟩
    exact congrFun (h4_row x w1 m1 c1 w2 m2 c2 w3 m3 c3 w4 m4 c4 w5 m5 c5 p) q

theorem store5 : k0_pay9 (F := Ideal) (k0_pay3 (F := Ideal) x w1 m1 c1 w2 m2 c2) w3 m3 c3 w4 m4 c4 w5 m5 c5 = rows (net5 𝑃) x :=
  funext fun y => by
    obtain ⟨p, q, rfl⟩ : ∃ (p : Fin 512) (q : Fin 6), y = ix2 p q := ⟨y 0, y 1, eq_ix2 y⟩
    exact congrFun (h5_row x w1 m1 c1 w2 m2 c2 w3 m3 c3 w4 m4 c4 w5 m5 c5 p) q

end Cert.KernelIdeal.BodyRows

end
-- ==== Proof.BlockReads.lean ====
/-
  What the region's windows hold at a grid point, and which points' blocks make up the output arrays.

  The grid has 32 points. At point t the input matrix's window holds rows 512·t … 512·t + 511 of x; each of the
  fifteen parameter windows holds its whole array at every point (its block index is constantly zero); the five
  one-row biases are the argument vectors laid out as rows by the host lines before the region. Each output
  window's block at point t is rows 512·t … 512·t + 511 of its array, so the 32 blocks cover the 16384 rows, and
  a block of an array that is computed row by row from x is the same row function on x's tile.
-/
import proofs.«103790_g54752243090113_cont_9to1c4b_246_27_alg».proof.Proof.Gen.KernelIdeal.Frame
import proofs.«103790_g54752243090113_cont_9to1c4b_246_27_alg».proof.Proof.RowNet
import Idealize.ShloMosaic.Lib.Pipeline.Value
import Idealize.ShloMosaic.Lib.StableHlo.Run

set_option maxRecDepth 16384

noncomputable section

namespace Cert.KernelIdeal.BlockReads

open Cert.KernelIdeal Cert.KernelIdeal.Gen Idealize.ShloMosaic Idealize.ShloMosaic.TcCoe Idealize.SL.Sem
open Idealize.ShloMosaic.ValueIdx MaskedMlp
open Idealize.ShloMosaic.Pipeline (Dat)

variable (m : (ℓ : Loc nD τ sig) → Buf (Elt Ideal) ℓ)

/-! ## The input matrix's tile -/

/-- Row p of the tile at point t is row 512·t + p of the matrix. -/
def tileRow (t : Fin cfg0.N) (p : Fin 512) : Fin 16384 :=
  ⟨512 * t.val + p.val, by have ht : t.val < 32 := lt_of_lt_of_eq t.isLt N_0; have hp := p.isLt; omega⟩

theorem index_0 : ∀ t : Fin cfg0.N, win0_0.index t (0 : Fin 2) = t.val ∧ win0_0.index t (1 : Fin 2) = 0 :=
  (by decide +kernel : ∀ t : Fin grid0.N, _)

/-- The input window's block at point t, read at (p, q), is the matrix at (512·t + p, q). -/
theorem tile_row (c : Dev nD) (t : Fin cfg0.N) (p : Fin 512) (q : Fin 1024) :
    (iblk m c 0 t : Vec Ideal S512x1024 .f32) (ix2 p q) = (V m c main_arg0 : S16384x1024.Idx → EReal) (ix2 (tileRow t p) q) := by
  unfold iblk
  rw [View.read_apply]
  show (V m c main_arg0 : S16384x1024.Idx → EReal) _ = _
  refine congrArg (V m c main_arg0 : S16384x1024.Idx → EReal) ?_
  funext a
  apply Fin.ext
  match a with
  | ⟨0, _⟩ => show win0_0.index t (0 : Fin 2) * 512 + 1 * p.val = 512 * t.val + p.val; rw [(index_0 t).1]; omega
  | ⟨1, _⟩ => show win0_0.index t (1 : Fin 2) * 1024 + 1 * q.val = q.val; rw [(index_0 t).2]; omega

/-! ## The parameter windows: the whole array at every point -/

theorem index0_1 : ∀ t : Fin cfg0.N, win0_1.index t (0 : Fin 2) = 0 ∧ win0_1.index t (1 : Fin 2) = 0 :=
  (by decide +kernel : ∀ t : Fin grid0.N, _)

/-- Window 1's block is its whole array at every point. -/
theorem whole_1 (c : Dev nD) (t : Fin cfg0.N) :
    (iblk m c 1 t : Vec Ideal S1000x1024 .f32) = (V m c main_arg1 : S1000x1024.Idx → EReal) := by
  funext y
  unfold iblk
  rw [View.read_apply]
  show (V m c main_arg1 : S1000x1024.Idx → EReal) _ = (V m c main_arg1 : S1000x1024.Idx → EReal) y
  refine congrArg (V m c main_arg1 : S1000x1024.Idx → EReal) ?_
  funext a
  apply Fin.ext
  match a with
  | ⟨0, _⟩ => show win0_1.index t (0 : Fin 2) * 1000 + 1 * (y 0).val = (y 0).val; rw [(index0_1 t).1]; omega
  | ⟨1, _⟩ => show win0_1.index t (1 : Fin 2) * 1024 + 1 * (y 1).val = (y 1).val; rw [(index0_1 t).2]; omega

theorem index0_3 : ∀ t : Fin cfg0.N, win0_3.index t (0 : Fin 2) = 0 ∧ win0_3.index t (1 : Fin 2) = 0 :=
  (by decide +kernel : ∀ t : Fin grid0.N, _)

/-- Window 3's block is its whole array at every point. -/
theorem whole_3 (c : Dev nD) (t : Fin cfg0.N) :
    (iblk m c 3 t : Vec Ideal S1000x1024 .f32) = (V m c main_arg3 : S1000x1024.Idx → EReal) := by
  funext y
  unfold iblk
  rw [View.read_apply]
  show (V m c main_arg3 : S1000x1024.Idx → EReal) _ = (V m c main_arg3 : S1000x1024.Idx → EReal) y
  refine congrArg (V m c main_arg3 : S1000x1024.Idx → EReal) ?_
  funext a
  apply Fin.ext
  match a with
  | ⟨0, _⟩ => show win0_3.index t (0 : Fin 2) * 1000 + 1 * (y 0).val = (y 0).val; rw [(index0_3 t).1]; omega
  | ⟨1, _⟩ => show win0_3.index t (1 : Fin 2) * 1024 + 1 * (y 1).val = (y 1).val; rw [(index0_3 t).2]; omega

theorem index0_4 : ∀ t : Fin cfg0.N, win0_4.index t (0 : Fin 2) = 0 ∧ win0_4.index t (1 : Fin 2) = 0 :=
  (by decide +kernel : ∀ t : Fin grid0.N, _)

/-- Window 4's block is its whole array at every point. -/
theorem whole_4 (c : Dev nD) (t : Fin cfg0.N) :
    (iblk m c 4 t : Vec Ideal S800x1000 .f32) = (V m c main_arg4 : S800x1000.Idx → EReal) := by
  funext y
  unfold iblk
  rw [View.read_apply]
  show (V m c main_arg4 : S800x1000.Idx → EReal) _ = (V m c main_arg4 : S800x1000.Idx → EReal) y
  refine congrArg (V m c main_arg4 : S800x1000.Idx → EReal) ?_
  funext a
  apply Fin.ext
  match a with
  | ⟨0, _⟩ => show win0_4.index t (0 : Fin 2) * 800 + 1 * (y 0).val = (y 0).val; rw [(index0_4 t).1]; omega
  | ⟨1, _⟩ => show win0_4.index t (1 : Fin 2) * 1000 + 1 * (y 1).val = (y 1).val; rw [(index0_4 t).2]; omega

theorem index0_6 : ∀ t : Fin cfg0.N, win0_6.index t (0 : Fin 2) = 0 ∧ win0_6.index t (1 : Fin 2) = 0 :=
  (by decide +kernel : ∀ t : Fin grid0.N, _)

/-- Window 6's block is its whole array at every point. -/
theorem whole_6 (c : Dev nD) (t : Fin cfg0.N) :
    (iblk m c 6 t : Vec Ideal S800x1000 .f32) = (V m c main_arg6 : S800x1000.Idx → EReal) := by
  funext y
  unfold iblk
  rw [View.read_apply]
  show (V m c main_arg6 : S800x1000.Idx → EReal) _ = (V m c main_arg6 : S800x1000.Idx → EReal) y
  refine congrArg (V m c main_arg6 : S800x1000.Idx → EReal) ?_
  funext a
  apply Fin.ext
  match a with
  | ⟨0, _⟩ => show win0_6.index t (0 : Fin 2) * 800 + 1 * (y 0).val = (y 0).val; rw [(index0_6 t).1]; omega
  | ⟨1, _⟩ => show win0_6.index t (1 : Fin 2) * 1000 + 1 * (y 1).val = (y 1).val; rw [(index0_6 t).2]; omega

theorem index0_7 : ∀ t : Fin cfg0.N, win0_7.index t (0 : Fin 2) = 0 ∧ win0_7.index t (1 : Fin 2) = 0 :=
  (by decide +kernel : ∀ t : Fin grid0.N, _)

/-- Window 7's block is its whole array at every point. -/
theorem whole_7 (c : Dev nD) (t : Fin cfg0.N) :
    (iblk m c 7 t : Vec Ideal S400x800 .f32) = (V m c main_arg7 : S400x800.Idx → EReal) := by
  funext y
  unfold iblk
  rw [View.read_apply]
  show (V m c main_arg7 : S400x800.Idx → EReal) _ = (V m c main_arg7 : S400x800.Idx → EReal) y
  refine congrArg (V m c main_arg7 : S400x800.Idx → EReal) ?_
  funext a
  apply Fin.ext
  match a with
  | ⟨0, _⟩ => show win0_7.index t (0 : Fin 2) * 400 + 1 * (y 0).val = (y 0).val; rw [(index0_7 t).1]; omega
  | ⟨1, _⟩ => show win0_7.index t (1 : Fin 2) * 800 + 1 * (y 1).val = (y 1).val; rw [(index0_7 t).2]; omega

theorem index0_9 : ∀ t : Fin cfg0.N, win0_9.index t (0 : Fin 2) = 0 ∧ win0_9.index t (1 : Fin 2) = 0 :=
  (by decide +kernel : ∀ t : Fin grid0.N, _)

/-- Window 9's block is its whole array at every point. -/
theorem whole_9 (c : Dev nD) (t : Fin cfg0.N) :
    (iblk m c 9 t : Vec Ideal S400x800 .f32) = (V m c main_arg9 : S400x800.Idx → EReal) := by
  funext y
  unfold iblk
  rw [View.read_apply]
  show (V m c main_arg9 : S400x800.Idx → EReal) _ = (V m c main_arg9 : S400x800.Idx → EReal) y
  refine congrArg (V m c main_arg9 : S400x800.Idx → EReal) ?_
  funext a
  apply Fin.ext
  match a with
  | ⟨0, _⟩ => show win0_9.index t (0 : Fin 2) * 400 + 1 * (y 0).val = (y 0).val; rw [(index0_9 t).1]; omega
  | ⟨1, _⟩ => show win0_9.index t (1 : Fin 2) * 800 + 1 * (y 1).val = (y 1).val; rw [(index0_9 t).2]; omega

theorem index0_10 : ∀ t : Fin cfg0.N, win0_10.index t (0 : Fin 2) = 0 ∧ win0_10.index t (1 : Fin 2) = 0 :=
  (by decide +kernel : ∀ t : Fin grid0.N, _)

/-- Window 10's block is its whole array at every point. -/
theorem whole_10 (c : Dev nD) (t : Fin cfg0.N) :
    (iblk m c 10 t : Vec Ideal S600x400 .f32) = (V m c main_arg10 : S600x400.Idx → EReal) := by
  funext y
  unfold iblk
  rw [View.read_apply]
  show (V m c main_arg10 : S600x400.Idx → EReal) _ = (V m c main_arg10 : S600x400.Idx → EReal) y
  refine congrArg (V m c main_arg10 : S600x400.Idx → EReal) ?_
  funext a
  apply Fin.ext
  match a with
  | ⟨0, _⟩ => show win0_10.index t (0 : Fin 2) * 600 + 1 * (y 0).val = (y 0).val; rw [(index0_10 t).1]; omega
  | ⟨1, _⟩ => show win0_10.index t (1 : Fin 2) * 400 + 1 * (y 1).val = (y 1).val; rw [(index0_10 t).2]; omega

theorem index0_12 : ∀ t : Fin cfg0.N, win0_12.index t (0 : Fin 2) = 0 ∧ win0_12.index t (1 : Fin 2) = 0 :=
  (by decide +kernel : ∀ t : Fin grid0.N, _)

/-- Window 12's block is its whole array at every point. -/
theorem whole_12 (c : Dev nD) (t : Fin cfg0.N) :
    (iblk m c 12 t : Vec Ideal S600x400 .f32) = (V m c main_arg12 : S600x400.Idx → EReal) := by
  funext y
  unfold iblk
  rw [View.read_apply]
  show (V m c main_arg12 : S600x400.Idx → EReal) _ = (V m c main_arg12 : S600x400.Idx → EReal) y
  refine congrArg (V m c main_arg12 : S600x400.Idx → EReal) ?_
  funext a
  apply Fin.ext
  match a with
  | ⟨0, _⟩ => show win0_12.index t (0 : Fin 2) * 600 + 1 * (y 0).val = (y 0).val; rw [(index0_12 t).1]; omega
  | ⟨1, _⟩ => show win0_12.index t (1 : Fin 2) * 400 + 1 * (y 1).val = (y 1).val; rw [(index0_12 t).2]; omega

theorem index0_13 : ∀ t : Fin cfg0.N, win0_13.index t (0 : Fin 2) = 0 ∧ win0_13.index t (1 : Fin 2) = 0 :=
  (by decide +kernel : ∀ t : Fin grid0.N, _)

/-- Window 13's block is its whole array at every point. -/
theorem whole_13 (c : Dev nD) (t : Fin cfg0.N) :
    (iblk m c 13 t : Vec Ideal S6x600 .f32) = (V m c main_arg13 : S6x600.Idx → EReal) := by
  funext y
  unfold iblk
  rw [View.read_apply]
  show (V m c main_arg13 : S6x600.Idx → EReal) _ = (V m c main_arg13 : S6x600.Idx → EReal) y
  refine congrArg (V m c main_arg13 : S6x600.Idx → EReal) ?_
  funext a
  apply Fin.ext
  match a with
  | ⟨0, _⟩ => show win0_13.index t (0 : Fin 2) * 6 + 1 * (y 0).val = (y 0).val; rw [(index0_13 t).1]; omega
  | ⟨1, _⟩ => show win0_13.index t (1 : Fin 2) * 600 + 1 * (y 1).val = (y 1).val; rw [(index0_13 t).2]; omega

theorem index0_15 : ∀ t : Fin cfg0.N, win0_15.index t (0 : Fin 2) = 0 ∧ win0_15.index t (1 : Fin 2) = 0 :=
  (by decide +kernel : ∀ t : Fin grid0.N, _)

/-- Window 15's block is its whole array at every point. -/
theorem whole_15 (c : Dev nD) (t : Fin cfg0.N) :
    (iblk m c 15 t : Vec Ideal S6x600 .f32) = (V m c main_arg15 : S6x600.Idx → EReal) := by
  funext y
  unfold iblk
  rw [View.read_apply]
  show (V m c main_arg15 : S6x600.Idx → EReal) _ = (V m c main_arg15 : S6x600.Idx → EReal) y
  refine congrArg (V m c main_arg15 : S6x600.Idx → EReal) ?_
  funext a
  apply Fin.ext
  match a with
  | ⟨0, _⟩ => show win0_15.index t (0 : Fin 2) * 6 + 1 * (y 0).val = (y 0).val; rw [(index0_15 t).1]; omega
  | ⟨1, _⟩ => show win0_15.index t (1 : Fin 2) * 600 + 1 * (y 1).val = (y 1).val; rw [(index0_15 t).2]; omega

theorem index0_2 : ∀ t : Fin cfg0.N, win0_2.index t (0 : Fin 2) = 0 ∧ win0_2.index t (1 : Fin 2) = 0 :=
  (by decide +kernel : ∀ t : Fin grid0.N, _)

/-- Window 2's block is its whole array at every point. -/
theorem whole_2 (c : Dev nD) (t : Fin cfg0.N) :
    (iblk m c 2 t : Vec Ideal S1x1000 .f32) = (V m c main_v0 : S1x1000.Idx → EReal) := by
  funext y
  unfold iblk
  rw [View.read_apply]
  show (V m c main_v0 : S1x1000.Idx → EReal) _ = (V m c main_v0 : S1x1000.Idx → EReal) y
  refine congrArg (V m c main_v0 : S1x1000.Idx → EReal) ?_
  funext a
  apply Fin.ext
  match a with
  | ⟨0, _⟩ => show win0_2.index t (0 : Fin 2) * 1 + 1 * (y 0).val = (y 0).val; rw [(index0_2 t).1]; omega
  | ⟨1, _⟩ => show win0_2.index t (1 : Fin 2) * 1000 + 1 * (y 1).val = (y 1).val; rw [(index0_2 t).2]; omega

theorem index0_5 : ∀ t : Fin cfg0.N, win0_5.index t (0 : Fin 2) = 0 ∧ win0_5.index t (1 : Fin 2) = 0 :=
  (by decide +kernel : ∀ t : Fin grid0.N, _)

/-- Window 5's block is its whole array at every point. -/
theorem whole_5 (c : Dev nD) (t : Fin cfg0.N) :
    (iblk m c 5 t : Vec Ideal S1x800 .f32) = (V m c main_v1 : S1x800.Idx → EReal) := by
  funext y
  unfold iblk
  rw [View.read_apply]
  show (V m c main_v1 : S1x800.Idx → EReal) _ = (V m c main_v1 : S1x800.Idx → EReal) y
  refine congrArg (V m c main_v1 : S1x800.Idx → EReal) ?_
  funext a
  apply Fin.ext
  match a with
  | ⟨0, _⟩ => show win0_5.index t (0 : Fin 2) * 1 + 1 * (y 0).val = (y 0).val; rw [(index0_5 t).1]; omega
  | ⟨1, _⟩ => show win0_5.index t (1 : Fin 2) * 800 + 1 * (y 1).val = (y 1).val; rw [(index0_5 t).2]; omega

theorem index0_8 : ∀ t : Fin cfg0.N, win0_8.index t (0 : Fin 2) = 0 ∧ win0_8.index t (1 : Fin 2) = 0 :=
  (by decide +kernel : ∀ t : Fin grid0.N, _)

/-- Window 8's block is its whole array at every point. -/
theorem whole_8 (c : Dev nD) (t : Fin cfg0.N) :
    (iblk m c 8 t : Vec Ideal S1x400 .f32) = (V m c main_v2 : S1x400.Idx → EReal) := by
  funext y
  unfold iblk
  rw [View.read_apply]
  show (V m c main_v2 : S1x400.Idx → EReal) _ = (V m c main_v2 : S1x400.Idx → EReal) y
  refine congrArg (V m c main_v2 : S1x400.Idx → EReal) ?_
  funext a
  apply Fin.ext
  match a with
  | ⟨0, _⟩ => show win0_8.index t (0 : Fin 2) * 1 + 1 * (y 0).val = (y 0).val; rw [(index0_8 t).1]; omega
  | ⟨1, _⟩ => show win0_8.index t (1 : Fin 2) * 400 + 1 * (y 1).val = (y 1).val; rw [(index0_8 t).2]; omega

theorem index0_11 : ∀ t : Fin cfg0.N, win0_11.index t (0 : Fin 2) = 0 ∧ win0_11.index t (1 : Fin 2) = 0 :=
  (by decide +kernel : ∀ t : Fin grid0.N, _)

/-- Window 11's block is its whole array at every point. -/
theorem whole_11 (c : Dev nD) (t : Fin cfg0.N) :
    (iblk m c 11 t : Vec Ideal S1x600 .f32) = (V m c main_v3 : S1x600.Idx → EReal) := by
  funext y
  unfold iblk
  rw [View.read_apply]
  show (V m c main_v3 : S1x600.Idx → EReal) _ = (V m c main_v3 : S1x600.Idx → EReal) y
  refine congrArg (V m c main_v3 : S1x600.Idx → EReal) ?_
  funext a
  apply Fin.ext
  match a with
  | ⟨0, _⟩ => show win0_11.index t (0 : Fin 2) * 1 + 1 * (y 0).val = (y 0).val; rw [(index0_11 t).1]; omega
  | ⟨1, _⟩ => show win0_11.index t (1 : Fin 2) * 600 + 1 * (y 1).val = (y 1).val; rw [(index0_11 t).2]; omega

theorem index0_14 : ∀ t : Fin cfg0.N, win0_14.index t (0 : Fin 2) = 0 ∧ win0_14.index t (1 : Fin 2) = 0 :=
  (by decide +kernel : ∀ t : Fin grid0.N, _)

/-- Window 14's block is its whole array at every point. -/
theorem whole_14 (c : Dev nD) (t : Fin cfg0.N) :
    (iblk m c 14 t : Vec Ideal S1x6 .f32) = (V m c main_v4 : S1x6.Idx → EReal) := by
  funext y
  unfold iblk
  rw [View.read_apply]
  show (V m c main_v4 : S1x6.Idx → EReal) _ = (V m c main_v4 : S1x6.Idx → EReal) y
  refine congrArg (V m c main_v4 : S1x6.Idx → EReal) ?_
  funext a
  apply Fin.ext
  match a with
  | ⟨0, _⟩ => show win0_14.index t (0 : Fin 2) * 1 + 1 * (y 0).val = (y 0).val; rw [(index0_14 t).1]; omega
  | ⟨1, _⟩ => show win0_14.index t (1 : Fin 2) * 6 + 1 * (y 1).val = (y 1).val; rw [(index0_14 t).2]; omega

/-! ## The biases as the region finds them -/

/-- The one-row bias the region finds in `main_v0` is the argument vector `main_arg2`, entry by entry: the host line
    before the region lays the vector out as a row. -/
theorem bias_2 (c : Dev nD) :
    row1 (V m c main_v0 : S1x1000.Idx → EReal) = vec (m ((c : Thread nD τ).loc main_arg2) : S1000.Idx → EReal) := by
  have e : (V m c main_v0 : S1x1000.Idx → EReal) = shapeCast S1x1000 (m ((c : Thread nD τ).loc main_arg2) : S1000.Idx → EReal) shapeCasts_S1000_S1x1000 := by
    show StableHlo.after hostOps0 (fun b => m (c, b)) (Proc.devRef .tc main_v0) = _
    after_results
    rfl
  funext j
  show (V m c main_v0 : S1x1000.Idx → EReal) (ix2 (0 : Fin 1) j) = _
  rw [e, shapeCast_a_1a_apply]

/-- The one-row bias the region finds in `main_v1` is the argument vector `main_arg5`, entry by entry: the host line
    before the region lays the vector out as a row. -/
theorem bias_5 (c : Dev nD) :
    row1 (V m c main_v1 : S1x800.Idx → EReal) = vec (m ((c : Thread nD τ).loc main_arg5) : S800.Idx → EReal) := by
  have e : (V m c main_v1 : S1x800.Idx → EReal) = shapeCast S1x800 (m ((c : Thread nD τ).loc main_arg5) : S800.Idx → EReal) shapeCasts_S800_S1x800 := by
    show StableHlo.after hostOps0 (fun b => m (c, b)) (Proc.devRef .tc main_v1) = _
    after_results
    rfl
  funext j
  show (V m c main_v1 : S1x800.Idx → EReal) (ix2 (0 : Fin 1) j) = _
  rw [e, shapeCast_a_1a_apply]

/-- The one-row bias the region finds in `main_v2` is the argument vector `main_arg8`, entry by entry: the host line
    before the region lays the vector out as a row. -/
theorem bias_8 (c : Dev nD) :
    row1 (V m c main_v2 : S1x400.Idx → EReal) = vec (m ((c : Thread nD τ).loc main_arg8) : S400.Idx → EReal) := by
  have e : (V m c main_v2 : S1x400.Idx → EReal) = shapeCast S1x400 (m ((c : Thread nD τ).loc main_arg8) : S400.Idx → EReal) shapeCasts_S400_S1x400 := by
    show StableHlo.after hostOps0 (fun b => m (c, b)) (Proc.devRef .tc main_v2) = _
    after_results
    rfl
  funext j
  show (V m c main_v2 : S1x400.Idx → EReal) (ix2 (0 : Fin 1) j) = _
  rw [e, shapeCast_a_1a_apply]

/-- The one-row bias the region finds in `main_v3` is the argument vector `main_arg11`, entry by entry: the host line
    before the region lays the vector out as a row. -/
theorem bias_11 (c : Dev nD) :
    row1 (V m c main_v3 : S1x600.Idx → EReal) = vec (m ((c : Thread nD τ).loc main_arg11) : S600.Idx → EReal) := by
  have e : (V m c main_v3 : S1x600.Idx → EReal) = shapeCast S1x600 (m ((c : Thread nD τ).loc main_arg11) : S600.Idx → EReal) shapeCasts_S600_S1x600 := by
    show StableHlo.after hostOps0 (fun b => m (c, b)) (Proc.devRef .tc main_v3) = _
    after_results
    rfl
  funext j
  show (V m c main_v3 : S1x600.Idx → EReal) (ix2 (0 : Fin 1) j) = _
  rw [e, shapeCast_a_1a_apply]

/-- The one-row bias the region finds in `main_v4` is the argument vector `main_arg14`, entry by entry: the host line
    before the region lays the vector out as a row. -/
theorem bias_14 (c : Dev nD) :
    row1 (V m c main_v4 : S1x6.Idx → EReal) = vec (m ((c : Thread nD τ).loc main_arg14) : S6.Idx → EReal) := by
  have e : (V m c main_v4 : S1x6.Idx → EReal) = shapeCast S1x6 (m ((c : Thread nD τ).loc main_arg14) : S6.Idx → EReal) shapeCasts_S6_S1x6 := by
    show StableHlo.after hostOps0 (fun b => m (c, b)) (Proc.devRef .tc main_v4) = _
    after_results
    rfl
  funext j
  show (V m c main_v4 : S1x6.Idx → EReal) (ix2 (0 : Fin 1) j) = _
  rw [e, shapeCast_a_1a_apply]

/-! ## The output windows -/

theorem index_16 : ∀ t : Fin cfg0.N, win0_16.index t (0 : Fin 2) = t.val ∧ win0_16.index t (1 : Fin 2) = 0 :=
  (by decide +kernel : ∀ t : Fin grid0.N, _)

/-- Output window 16's block at point t holds rows 512·t … 512·t + 511 of its array, all 1000 columns. -/
theorem emb_16 (t : Fin cfg0.N) (p : Fin 512) (q : Fin 1000) :
    ((cfg0.win 16).blk t).view.emb (ix2 p q : S512x1000.Idx) = (ix2 (tileRow t p) q : S16384x1000.Idx) := by
  funext a
  apply Fin.ext
  match a with
  | ⟨0, _⟩ => show win0_16.index t (0 : Fin 2) * 512 + 1 * p.val = 512 * t.val + p.val; rw [(index_16 t).1]; omega
  | ⟨1, _⟩ => show win0_16.index t (1 : Fin 2) * 1000 + 1 * q.val = q.val; rw [(index_16 t).2]; omega

/-- So that block of an array computed row by row from the input matrix is the same row function on the input's
    tile at t. -/
theorem read_rows_16 (f : (Fin 1024 → EReal) → Fin 1000 → EReal) (c : Dev nD) (t : Fin cfg0.N) :
    ((cfg0.win 16).blk t).view.read (Elt Ideal) (rows f (V m c main_arg0 : S16384x1024.Idx → EReal) : S16384x1000.Idx → EReal)
      = (rows f (iblk m c 0 t : Vec Ideal S512x1024 .f32) : S512x1000.Idx → EReal) := by
  funext y
  obtain ⟨p, q, rfl⟩ : ∃ (p : Fin 512) (q : Fin 1000), y = ix2 p q := ⟨y 0, y 1, eq_ix2 y⟩
  rw [View.read_apply]
  show (rows f (V m c main_arg0 : S16384x1024.Idx → EReal) : S16384x1000.Idx → EReal) (((cfg0.win 16).blk t).view.emb (ix2 p q : S512x1000.Idx)) = _
  rw [emb_16 t p q, rows_apply, rows_apply]
  exact congrArg (fun r => f r q) (funext fun k => (tile_row m c t p k).symm)

/-- An index (r, q) of the array lies in the block of point r / 512. -/
theorem cover_16 (i : S16384x1000.Idx) : ∃ t : Fin cfg0.N, (cfg0.win 16).flush t = true ∧ i ∈ ((cfg0.win 16).blk t).view.set := by
  have hi0 : (i 0).val < 16384 := (i 0).isLt
  have hi1 : (i 1).val < 1000 := (i 1).isLt
  have ht : (i 0).val / 512 < cfg0.N := by rw [show cfg0.N = 32 from N_0]; omega
  refine ⟨⟨(i 0).val / 512, ht⟩, flush0_16 _, ?_⟩
  show i ∈ ((View.whole main_v5_0).slice (win0_16.rect ⟨(i 0).val / 512, ht⟩)).set
  rw [View.set_slice_whole, Rect.mem_set_unit]
  intro a
  match a with
  | ⟨0, _⟩ =>
    show win0_16.index ⟨(i 0).val / 512, ht⟩ (0 : Fin 2) * 512 ≤ (i 0).val ∧ (i 0).val < win0_16.index ⟨(i 0).val / 512, ht⟩ (0 : Fin 2) * 512 + 512
    rw [(index_16 ⟨(i 0).val / 512, ht⟩).1]
    show (i 0).val / 512 * 512 ≤ (i 0).val ∧ (i 0).val < (i 0).val / 512 * 512 + 512
    omega
  | ⟨1, _⟩ =>
    show win0_16.index ⟨(i 0).val / 512, ht⟩ (1 : Fin 2) * 1000 ≤ (i 1).val ∧ (i 1).val < win0_16.index ⟨(i 0).val / 512, ht⟩ (1 : Fin 2) * 1000 + 1000
    rw [(index_16 ⟨(i 0).val / 512, ht⟩).2]
    omega

theorem index_17 : ∀ t : Fin cfg0.N, win0_17.index t (0 : Fin 2) = t.val ∧ win0_17.index t (1 : Fin 2) = 0 :=
  (by decide +kernel : ∀ t : Fin grid0.N, _)

/-- Output window 17's block at point t holds rows 512·t … 512·t + 511 of its array, all 800 columns. -/
theorem emb_17 (t : Fin cfg0.N) (p : Fin 512) (q : Fin 800) :
    ((cfg0.win 17).blk t).view.emb (ix2 p q : S512x800.Idx) = (ix2 (tileRow t p) q : S16384x800.Idx) := by
  funext a
  apply Fin.ext
  match a with
  | ⟨0, _⟩ => show win0_17.index t (0 : Fin 2) * 512 + 1 * p.val = 512 * t.val + p.val; rw [(index_17 t).1]; omega
  | ⟨1, _⟩ => show win0_17.index t (1 : Fin 2) * 800 + 1 * q.val = q.val; rw [(index_17 t).2]; omega

/-- So that block of an array computed row by row from the input matrix is the same row function on the input's
    tile at t. -/
theorem read_rows_17 (f : (Fin 1024 → EReal) → Fin 800 → EReal) (c : Dev nD) (t : Fin cfg0.N) :
    ((cfg0.win 17).blk t).view.read (Elt Ideal) (rows f (V m c main_arg0 : S16384x1024.Idx → EReal) : S16384x800.Idx → EReal)
      = (rows f (iblk m c 0 t : Vec Ideal S512x1024 .f32) : S512x800.Idx → EReal) := by
  funext y
  obtain ⟨p, q, rfl⟩ : ∃ (p : Fin 512) (q : Fin 800), y = ix2 p q := ⟨y 0, y 1, eq_ix2 y⟩
  rw [View.read_apply]
  show (rows f (V m c main_arg0 : S16384x1024.Idx → EReal) : S16384x800.Idx → EReal) (((cfg0.win 17).blk t).view.emb (ix2 p q : S512x800.Idx)) = _
  rw [emb_17 t p q, rows_apply, rows_apply]
  exact congrArg (fun r => f r q) (funext fun k => (tile_row m c t p k).symm)

/-- An index (r, q) of the array lies in the block of point r / 512. -/
theorem cover_17 (i : S16384x800.Idx) : ∃ t : Fin cfg0.N, (cfg0.win 17).flush t = true ∧ i ∈ ((cfg0.win 17).blk t).view.set := by
  have hi0 : (i 0).val < 16384 := (i 0).isLt
  have hi1 : (i 1).val < 800 := (i 1).isLt
  have ht : (i 0).val / 512 < cfg0.N := by rw [show cfg0.N = 32 from N_0]; omega
  refine ⟨⟨(i 0).val / 512, ht⟩, flush0_17 _, ?_⟩
  show i ∈ ((View.whole main_v5_1).slice (win0_17.rect ⟨(i 0).val / 512, ht⟩)).set
  rw [View.set_slice_whole, Rect.mem_set_unit]
  intro a
  match a with
  | ⟨0, _⟩ =>
    show win0_17.index ⟨(i 0).val / 512, ht⟩ (0 : Fin 2) * 512 ≤ (i 0).val ∧ (i 0).val < win0_17.index ⟨(i 0).val / 512, ht⟩ (0 : Fin 2) * 512 + 512
    rw [(index_17 ⟨(i 0).val / 512, ht⟩).1]
    show (i 0).val / 512 * 512 ≤ (i 0).val ∧ (i 0).val < (i 0).val / 512 * 512 + 512
    omega
  | ⟨1, _⟩ =>
    show win0_17.index ⟨(i 0).val / 512, ht⟩ (1 : Fin 2) * 800 ≤ (i 1).val ∧ (i 1).val < win0_17.index ⟨(i 0).val / 512, ht⟩ (1 : Fin 2) * 800 + 800
    rw [(index_17 ⟨(i 0).val / 512, ht⟩).2]
    omega

theorem index_18 : ∀ t : Fin cfg0.N, win0_18.index t (0 : Fin 2) = t.val ∧ win0_18.index t (1 : Fin 2) = 0 :=
  (by decide +kernel : ∀ t : Fin grid0.N, _)

/-- Output window 18's block at point t holds rows 512·t … 512·t + 511 of its array, all 400 columns. -/
theorem emb_18 (t : Fin cfg0.N) (p : Fin 512) (q : Fin 400) :
    ((cfg0.win 18).blk t).view.emb (ix2 p q : S512x400.Idx) = (ix2 (tileRow t p) q : S16384x400.Idx) := by
  funext a
  apply Fin.ext
  match a with
  | ⟨0, _⟩ => show win0_18.index t (0 : Fin 2) * 512 + 1 * p.val = 512 * t.val + p.val; rw [(index_18 t).1]; omega
  | ⟨1, _⟩ => show win0_18.index t (1 : Fin 2) * 400 + 1 * q.val = q.val; rw [(index_18 t).2]; omega

/-- So that block of an array computed row by row from the input matrix is the same row function on the input's
    tile at t. -/
theorem read_rows_18 (f : (Fin 1024 → EReal) → Fin 400 → EReal) (c : Dev nD) (t : Fin cfg0.N) :
    ((cfg0.win 18).blk t).view.read (Elt Ideal) (rows f (V m c main_arg0 : S16384x1024.Idx → EReal) : S16384x400.Idx → EReal)
      = (rows f (iblk m c 0 t : Vec Ideal S512x1024 .f32) : S512x400.Idx → EReal) := by
  funext y
  obtain ⟨p, q, rfl⟩ : ∃ (p : Fin 512) (q : Fin 400), y = ix2 p q := ⟨y 0, y 1, eq_ix2 y⟩
  rw [View.read_apply]
  show (rows f (V m c main_arg0 : S16384x1024.Idx → EReal) : S16384x400.Idx → EReal) (((cfg0.win 18).blk t).view.emb (ix2 p q : S512x400.Idx)) = _
  rw [emb_18 t p q, rows_apply, rows_apply]
  exact congrArg (fun r => f r q) (funext fun k => (tile_row m c t p k).symm)

/-- An index (r, q) of the array lies in the block of point r / 512. -/
theorem cover_18 (i : S16384x400.Idx) : ∃ t : Fin cfg0.N, (cfg0.win 18).flush t = true ∧ i ∈ ((cfg0.win 18).blk t).view.set := by
  have hi0 : (i 0).val < 16384 := (i 0).isLt
  have hi1 : (i 1).val < 400 := (i 1).isLt
  have ht : (i 0).val / 512 < cfg0.N := by rw [show cfg0.N = 32 from N_0]; omega
  refine ⟨⟨(i 0).val / 512, ht⟩, flush0_18 _, ?_⟩
  show i ∈ ((View.whole main_v5_2).slice (win0_18.rect ⟨(i 0).val / 512, ht⟩)).set
  rw [View.set_slice_whole, Rect.mem_set_unit]
  intro a
  match a with
  | ⟨0, _⟩ =>
    show win0_18.index ⟨(i 0).val / 512, ht⟩ (0 : Fin 2) * 512 ≤ (i 0).val ∧ (i 0).val < win0_18.index ⟨(i 0).val / 512, ht⟩ (0 : Fin 2) * 512 + 512
    rw [(index_18 ⟨(i 0).val / 512, ht⟩).1]
    show (i 0).val / 512 * 512 ≤ (i 0).val ∧ (i 0).val < (i 0).val / 512 * 512 + 512
    omega
  | ⟨1, _⟩ =>
    show win0_18.index ⟨(i 0).val / 512, ht⟩ (1 : Fin 2) * 400 ≤ (i 1).val ∧ (i 1).val < win0_18.index ⟨(i 0).val / 512, ht⟩ (1 : Fin 2) * 400 + 400
    rw [(index_18 ⟨(i 0).val / 512, ht⟩).2]
    omega

theorem index_19 : ∀ t : Fin cfg0.N, win0_19.index t (0 : Fin 2) = t.val ∧ win0_19.index t (1 : Fin 2) = 0 :=
  (by decide +kernel : ∀ t : Fin grid0.N, _)

/-- Output window 19's block at point t holds rows 512·t … 512·t + 511 of its array, all 600 columns. -/
theorem emb_19 (t : Fin cfg0.N) (p : Fin 512) (q : Fin 600) :
    ((cfg0.win 19).blk t).view.emb (ix2 p q : S512x600.Idx) = (ix2 (tileRow t p) q : S16384x600.Idx) := by
  funext a
  apply Fin.ext
  match a with
  | ⟨0, _⟩ => show win0_19.index t (0 : Fin 2) * 512 + 1 * p.val = 512 * t.val + p.val; rw [(index_19 t).1]; omega
  | ⟨1, _⟩ => show win0_19.index t (1 : Fin 2) * 600 + 1 * q.val = q.val; rw [(index_19 t).2]; omega

/-- So that block of an array computed row by row from the input matrix is the same row function on the input's
    tile at t. -/
theorem read_rows_19 (f : (Fin 1024 → EReal) → Fin 600 → EReal) (c : Dev nD) (t : Fin cfg0.N) :
    ((cfg0.win 19).blk t).view.read (Elt Ideal) (rows f (V m c main_arg0 : S16384x1024.Idx → EReal) : S16384x600.Idx → EReal)
      = (rows f (iblk m c 0 t : Vec Ideal S512x1024 .f32) : S512x600.Idx → EReal) := by
  funext y
  obtain ⟨p, q, rfl⟩ : ∃ (p : Fin 512) (q : Fin 600), y = ix2 p q := ⟨y 0, y 1, eq_ix2 y⟩
  rw [View.read_apply]
  show (rows f (V m c main_arg0 : S16384x1024.Idx → EReal) : S16384x600.Idx → EReal) (((cfg0.win 19).blk t).view.emb (ix2 p q : S512x600.Idx)) = _
  rw [emb_19 t p q, rows_apply, rows_apply]
  exact congrArg (fun r => f r q) (funext fun k => (tile_row m c t p k).symm)

/-- An index (r, q) of the array lies in the block of point r / 512. -/
theorem cover_19 (i : S16384x600.Idx) : ∃ t : Fin cfg0.N, (cfg0.win 19).flush t = true ∧ i ∈ ((cfg0.win 19).blk t).view.set := by
  have hi0 : (i 0).val < 16384 := (i 0).isLt
  have hi1 : (i 1).val < 600 := (i 1).isLt
  have ht : (i 0).val / 512 < cfg0.N := by rw [show cfg0.N = 32 from N_0]; omega
  refine ⟨⟨(i 0).val / 512, ht⟩, flush0_19 _, ?_⟩
  show i ∈ ((View.whole main_v5_3).slice (win0_19.rect ⟨(i 0).val / 512, ht⟩)).set
  rw [View.set_slice_whole, Rect.mem_set_unit]
  intro a
  match a with
  | ⟨0, _⟩ =>
    show win0_19.index ⟨(i 0).val / 512, ht⟩ (0 : Fin 2) * 512 ≤ (i 0).val ∧ (i 0).val < win0_19.index ⟨(i 0).val / 512, ht⟩ (0 : Fin 2) * 512 + 512
    rw [(index_19 ⟨(i 0).val / 512, ht⟩).1]
    show (i 0).val / 512 * 512 ≤ (i 0).val ∧ (i 0).val < (i 0).val / 512 * 512 + 512
    omega
  | ⟨1, _⟩ =>
    show win0_19.index ⟨(i 0).val / 512, ht⟩ (1 : Fin 2) * 600 ≤ (i 1).val ∧ (i 1).val < win0_19.index ⟨(i 0).val / 512, ht⟩ (1 : Fin 2) * 600 + 600
    rw [(index_19 ⟨(i 0).val / 512, ht⟩).2]
    omega

theorem index_20 : ∀ t : Fin cfg0.N, win0_20.index t (0 : Fin 2) = t.val ∧ win0_20.index t (1 : Fin 2) = 0 :=
  (by decide +kernel : ∀ t : Fin grid0.N, _)

/-- Output window 20's block at point t holds rows 512·t … 512·t + 511 of its array, all 6 columns. -/
theorem emb_20 (t : Fin cfg0.N) (p : Fin 512) (q : Fin 6) :
    ((cfg0.win 20).blk t).view.emb (ix2 p q : S512x6.Idx) = (ix2 (tileRow t p) q : S16384x6.Idx) := by
  funext a
  apply Fin.ext
  match a with
  | ⟨0, _⟩ => show win0_20.index t (0 : Fin 2) * 512 + 1 * p.val = 512 * t.val + p.val; rw [(index_20 t).1]; omega
  | ⟨1, _⟩ => show win0_20.index t (1 : Fin 2) * 6 + 1 * q.val = q.val; rw [(index_20 t).2]; omega

/-- So that block of an array computed row by row from the input matrix is the same row function on the input's
    tile at t. -/
theorem read_rows_20 (f : (Fin 1024 → EReal) → Fin 6 → EReal) (c : Dev nD) (t : Fin cfg0.N) :
    ((cfg0.win 20).blk t).view.read (Elt Ideal) (rows f (V m c main_arg0 : S16384x1024.Idx → EReal) : S16384x6.Idx → EReal)
      = (rows f (iblk m c 0 t : Vec Ideal S512x1024 .f32) : S512x6.Idx → EReal) := by
  funext y
  obtain ⟨p, q, rfl⟩ : ∃ (p : Fin 512) (q : Fin 6), y = ix2 p q := ⟨y 0, y 1, eq_ix2 y⟩
  rw [View.read_apply]
  show (rows f (V m c main_arg0 : S16384x1024.Idx → EReal) : S16384x6.Idx → EReal) (((cfg0.win 20).blk t).view.emb (ix2 p q : S512x6.Idx)) = _
  rw [emb_20 t p q, rows_apply, rows_apply]
  exact congrArg (fun r => f r q) (funext fun k => (tile_row m c t p k).symm)

/-- An index (r, q) of the array lies in the block of point r / 512. -/
theorem cover_20 (i : S16384x6.Idx) : ∃ t : Fin cfg0.N, (cfg0.win 20).flush t = true ∧ i ∈ ((cfg0.win 20).blk t).view.set := by
  have hi0 : (i 0).val < 16384 := (i 0).isLt
  have hi1 : (i 1).val < 6 := (i 1).isLt
  have ht : (i 0).val / 512 < cfg0.N := by rw [show cfg0.N = 32 from N_0]; omega
  refine ⟨⟨(i 0).val / 512, ht⟩, flush0_20 _, ?_⟩
  show i ∈ ((View.whole main_v5_4).slice (win0_20.rect ⟨(i 0).val / 512, ht⟩)).set
  rw [View.set_slice_whole, Rect.mem_set_unit]
  intro a
  match a with
  | ⟨0, _⟩ =>
    show win0_20.index ⟨(i 0).val / 512, ht⟩ (0 : Fin 2) * 512 ≤ (i 0).val ∧ (i 0).val < win0_20.index ⟨(i 0).val / 512, ht⟩ (0 : Fin 2) * 512 + 512
    rw [(index_20 ⟨(i 0).val / 512, ht⟩).1]
    show (i 0).val / 512 * 512 ≤ (i 0).val ∧ (i 0).val < (i 0).val / 512 * 512 + 512
    omega
  | ⟨1, _⟩ =>
    show win0_20.index ⟨(i 0).val / 512, ht⟩ (1 : Fin 2) * 6 ≤ (i 1).val ∧ (i 1).val < win0_20.index ⟨(i 0).val / 512, ht⟩ (1 : Fin 2) * 6 + 6
    rw [(index_20 ⟨(i 0).val / 512, ht⟩).2]
    omega

end Cert.KernelIdeal.BlockReads

end
-- ==== Proof.KernelArrays.lean ====
/-
  The five output arrays of the kernel after its run, and the program's results.

  At every grid point the body leaves in each output window's buffer the corresponding row function of the network
  on the input's tile, with the parameters as launched (they are the same blocks at every point); that is block t
  of the row function on the whole input matrix. The 32 blocks cover each output array, so each array ends as its
  row function on every row of the input. The host lines after the region only widen the float format, the identity
  here.
-/
import proofs.«103790_g54752243090113_cont_9to1c4b_246_27_alg».proof.Proof.Gen.KernelIdeal.Frame
import proofs.«103790_g54752243090113_cont_9to1c4b_246_27_alg».proof.Proof.BodyRows
import proofs.«103790_g54752243090113_cont_9to1c4b_246_27_alg».proof.Proof.BlockReads
import Idealize.ShloMosaic.Lib.Pipeline.Value
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx MaskedMlp Cert.KernelIdeal.BodyRows Cert.KernelIdeal.BlockReads
open Idealize.ShloMosaic.Pipeline (Dat)

variable (m : (ℓ : Loc nD τ sig) → Buf (Elt Ideal) ℓ) (ρ : Dev nD → PrngReg)

/-- The network's parameters as the program is launched with them. -/
def launchParams (c : Dev nD) : Params :=
  argParams (m ((c : Thread nD τ).loc main_arg1)) (m ((c : Thread nD τ).loc main_arg3)) (m ((c : Thread nD τ).loc main_arg2))
    (m ((c : Thread nD τ).loc main_arg4)) (m ((c : Thread nD τ).loc main_arg6)) (m ((c : Thread nD τ).loc main_arg5))
    (m ((c : Thread nD τ).loc main_arg7)) (m ((c : Thread nD τ).loc main_arg9)) (m ((c : Thread nD τ).loc main_arg8))
    (m ((c : Thread nD τ).loc main_arg10)) (m ((c : Thread nD τ).loc main_arg12)) (m ((c : Thread nD τ).loc main_arg11))
    (m ((c : Thread nD τ).loc main_arg13)) (m ((c : Thread nD τ).loc main_arg15)) (m ((c : Thread nD τ).loc main_arg14))

theorem hz : (![0, 0] : Fin 2 → Nat) = fun _ => 0 := funext fun a => by fin_cases a <;> rfl

/-- The parameters the body loads at any point are the launched ones. -/
theorem block_params (c : Dev nD) (t : Fin cfg0.N) :
    blockParams (iblk m c 1 t) (iblk m c 3 t) (iblk m c 2 t) (iblk m c 4 t) (iblk m c 6 t) (iblk m c 5 t) (iblk m c 7 t) (iblk m c 9 t) (iblk m c 8 t) (iblk m c 10 t) (iblk m c 12 t) (iblk m c 11 t) (iblk m c 13 t) (iblk m c 15 t) (iblk m c 14 t) = launchParams m c := by
  unfold blockParams launchParams argParams
  rw [whole_1 m c t, whole_3 m c t, whole_2 m c t, whole_4 m c t, whole_6 m c t, whole_5 m c t, whole_7 m c t, whole_9 m c t,
    whole_8 m c t, whole_10 m c t, whole_12 m c t, whole_11 m c t, whole_13 m c t, whole_15 m c t, whole_14 m c t,
    bias_2 m c, bias_5 m c, bias_8 m c, bias_11 m c, bias_14 m c,
    V_main_arg1 m c, V_main_arg3 m c, V_main_arg4 m c, V_main_arg6 m c, V_main_arg7 m c, V_main_arg9 m c,
    V_main_arg10 m c, V_main_arg12 m c, V_main_arg13 m c, V_main_arg15 m c]

/-! ## The output arrays after the region -/

/-- What point t writes back to the first output array is block t of the network's first row function on
    every row of the input matrix. -/
theorem flushed16_eq (c : Dev nD) (t : Fin cfg0.N) :
    (dats m 0 c).flushed 16 t = ((cfg0.win 16).blk t).view.read (Elt Ideal)
      (rows (net1 (launchParams m c)) (V m c main_arg0 : S16384x1024.Idx → EReal) : S16384x1000.Idx → EReal) := by
  show (cfg0.win 16).cut (grid0.coords t) ((dats m 0 c).after 16 t) = _
  rw [after0_16]
  unfold out0_16
  rw [View.canon_unit_zero hz]
  simp only [View.ld_unit_zero (S := S512x1024) hz, View.ld_unit_zero (S := S1000x1024) hz, View.ld_unit_zero (S := S1x1000) hz]
  refine Eq.trans ?_ (read_rows_16 m (net1 (launchParams m c)) c t).symm
  show k0_pay2 (F := Ideal) (iblk m c 0 t) (iblk m c 1 t) (iblk m c 3 t) (iblk m c 2 t) = _
  rw [store1 (iblk m c 0 t) (iblk m c 1 t) (iblk m c 3 t) (iblk m c 2 t) (iblk m c 4 t) (iblk m c 6 t) (iblk m c 5 t) (iblk m c 7 t) (iblk m c 9 t) (iblk m c 8 t) (iblk m c 10 t) (iblk m c 12 t) (iblk m c 11 t) (iblk m c 13 t) (iblk m c 15 t) (iblk m c 14 t), block_params m c t]

/-- The first output array after the region. -/
theorem final16 (c : Dev nD) :
    (dats m 0 c).arrAt 16 cfg0.N = (rows (net1 (launchParams m c)) (V m c main_arg0 : S16384x1024.Idx → EReal) : S16384x1000.Idx → EReal) :=
  (dats m 0 c).arrAt_eq_of_cover 16 _ (fun t _ => flushed16_eq m c t) cover_16

/-- What point t writes back to the second output array is block t of the network's second row function on
    every row of the input matrix. -/
theorem flushed17_eq (c : Dev nD) (t : Fin cfg0.N) :
    (dats m 0 c).flushed 17 t = ((cfg0.win 17).blk t).view.read (Elt Ideal)
      (rows (net2 (launchParams m c)) (V m c main_arg0 : S16384x1024.Idx → EReal) : S16384x800.Idx → EReal) := by
  show (cfg0.win 17).cut (grid0.coords t) ((dats m 0 c).after 17 t) = _
  rw [after0_17]
  unfold out0_17
  rw [View.canon_unit_zero hz]
  simp only [View.ld_unit_zero (S := S512x1024) hz, View.ld_unit_zero (S := S1000x1024) hz, View.ld_unit_zero (S := S1x1000) hz, View.ld_unit_zero (S := S800x1000) hz, View.ld_unit_zero (S := S1x800) hz]
  refine Eq.trans ?_ (read_rows_17 m (net2 (launchParams m c)) c t).symm
  show k0_pay4 (F := Ideal) (iblk m c 0 t) (iblk m c 1 t) (iblk m c 3 t) (iblk m c 2 t) (iblk m c 4 t) (iblk m c 6 t) (iblk m c 5 t) = _
  rw [store2 (iblk m c 0 t) (iblk m c 1 t) (iblk m c 3 t) (iblk m c 2 t) (iblk m c 4 t) (iblk m c 6 t) (iblk m c 5 t) (iblk m c 7 t) (iblk m c 9 t) (iblk m c 8 t) (iblk m c 10 t) (iblk m c 12 t) (iblk m c 11 t) (iblk m c 13 t) (iblk m c 15 t) (iblk m c 14 t), block_params m c t]

/-- The second output array after the region. -/
theorem final17 (c : Dev nD) :
    (dats m 0 c).arrAt 17 cfg0.N = (rows (net2 (launchParams m c)) (V m c main_arg0 : S16384x1024.Idx → EReal) : S16384x800.Idx → EReal) :=
  (dats m 0 c).arrAt_eq_of_cover 17 _ (fun t _ => flushed17_eq m c t) cover_17

/-- What point t writes back to the third output array is block t of the network's third row function on
    every row of the input matrix. -/
theorem flushed18_eq (c : Dev nD) (t : Fin cfg0.N) :
    (dats m 0 c).flushed 18 t = ((cfg0.win 18).blk t).view.read (Elt Ideal)
      (rows (net3 (launchParams m c)) (V m c main_arg0 : S16384x1024.Idx → EReal) : S16384x400.Idx → EReal) := by
  show (cfg0.win 18).cut (grid0.coords t) ((dats m 0 c).after 18 t) = _
  rw [after0_18]
  unfold out0_18
  rw [View.canon_unit_zero hz]
  simp only [View.ld_unit_zero (S := S512x1024) hz, View.ld_unit_zero (S := S1000x1024) hz, View.ld_unit_zero (S := S1x1000) hz, View.ld_unit_zero (S := S800x1000) hz, View.ld_unit_zero (S := S1x800) hz, View.ld_unit_zero (S := S400x800) hz, View.ld_unit_zero (S := S1x400) hz]
  refine Eq.trans ?_ (read_rows_18 m (net3 (launchParams m c)) c t).symm
  show k0_pay6 (F := Ideal) (k0_pay3 (F := Ideal) (iblk m c 0 t) (iblk m c 1 t) (iblk m c 3 t) (iblk m c 2 t) (iblk m c 4 t) (iblk m c 6 t) (iblk m c 5 t)) (iblk m c 7 t) (iblk m c 9 t) (iblk m c 8 t) = _
  rw [store3 (iblk m c 0 t) (iblk m c 1 t) (iblk m c 3 t) (iblk m c 2 t) (iblk m c 4 t) (iblk m c 6 t) (iblk m c 5 t) (iblk m c 7 t) (iblk m c 9 t) (iblk m c 8 t) (iblk m c 10 t) (iblk m c 12 t) (iblk m c 11 t) (iblk m c 13 t) (iblk m c 15 t) (iblk m c 14 t), block_params m c t]

/-- The third output array after the region. -/
theorem final18 (c : Dev nD) :
    (dats m 0 c).arrAt 18 cfg0.N = (rows (net3 (launchParams m c)) (V m c main_arg0 : S16384x1024.Idx → EReal) : S16384x400.Idx → EReal) :=
  (dats m 0 c).arrAt_eq_of_cover 18 _ (fun t _ => flushed18_eq m c t) cover_18

/-- What point t writes back to the fourth output array is block t of the network's fourth row function on
    every row of the input matrix. -/
theorem flushed19_eq (c : Dev nD) (t : Fin cfg0.N) :
    (dats m 0 c).flushed 19 t = ((cfg0.win 19).blk t).view.read (Elt Ideal)
      (rows (net4 (launchParams m c)) (V m c main_arg0 : S16384x1024.Idx → EReal) : S16384x600.Idx → EReal) := by
  show (cfg0.win 19).cut (grid0.coords t) ((dats m 0 c).after 19 t) = _
  rw [after0_19]
  unfold out0_19
  rw [View.canon_unit_zero hz]
  simp only [View.ld_unit_zero (S := S512x1024) hz, View.ld_unit_zero (S := S1000x1024) hz, View.ld_unit_zero (S := S1x1000) hz, View.ld_unit_zero (S := S800x1000) hz, View.ld_unit_zero (S := S1x800) hz, View.ld_unit_zero (S := S400x800) hz, View.ld_unit_zero (S := S1x400) hz, View.ld_unit_zero (S := S600x400) hz, View.ld_unit_zero (S := S1x600) hz]
  refine Eq.trans ?_ (read_rows_19 m (net4 (launchParams m c)) c t).symm
  show k0_pay8 (F := Ideal) (k0_pay3 (F := Ideal) (iblk m c 0 t) (iblk m c 1 t) (iblk m c 3 t) (iblk m c 2 t) (iblk m c 4 t) (iblk m c 6 t) (iblk m c 5 t)) (iblk m c 7 t) (iblk m c 9 t) (iblk m c 8 t) (iblk m c 10 t) (iblk m c 12 t) (iblk m c 11 t) = _
  rw [store4 (iblk m c 0 t) (iblk m c 1 t) (iblk m c 3 t) (iblk m c 2 t) (iblk m c 4 t) (iblk m c 6 t) (iblk m c 5 t) (iblk m c 7 t) (iblk m c 9 t) (iblk m c 8 t) (iblk m c 10 t) (iblk m c 12 t) (iblk m c 11 t) (iblk m c 13 t) (iblk m c 15 t) (iblk m c 14 t), block_params m c t]

/-- The fourth output array after the region. -/
theorem final19 (c : Dev nD) :
    (dats m 0 c).arrAt 19 cfg0.N = (rows (net4 (launchParams m c)) (V m c main_arg0 : S16384x1024.Idx → EReal) : S16384x600.Idx → EReal) :=
  (dats m 0 c).arrAt_eq_of_cover 19 _ (fun t _ => flushed19_eq m c t) cover_19

/-- What point t writes back to the fifth output array is block t of the network's fifth row function on
    every row of the input matrix. -/
theorem flushed20_eq (c : Dev nD) (t : Fin cfg0.N) :
    (dats m 0 c).flushed 20 t = ((cfg0.win 20).blk t).view.read (Elt Ideal)
      (rows (net5 (launchParams m c)) (V m c main_arg0 : S16384x1024.Idx → EReal) : S16384x6.Idx → EReal) := by
  show (cfg0.win 20).cut (grid0.coords t) ((dats m 0 c).after 20 t) = _
  rw [after0_20]
  unfold out0_20
  rw [View.canon_unit_zero hz]
  simp only [View.ld_unit_zero (S := S512x1024) hz, View.ld_unit_zero (S := S1000x1024) hz, View.ld_unit_zero (S := S1x1000) hz, View.ld_unit_zero (S := S800x1000) hz, View.ld_unit_zero (S := S1x800) hz, View.ld_unit_zero (S := S400x800) hz, View.ld_unit_zero (S := S1x400) hz, View.ld_unit_zero (S := S600x400) hz, View.ld_unit_zero (S := S1x600) hz, View.ld_unit_zero (S := S6x600) hz, View.ld_unit_zero (S := S1x6) hz]
  refine Eq.trans ?_ (read_rows_20 m (net5 (launchParams m c)) c t).symm
  show k0_pay9 (F := Ideal) (k0_pay3 (F := Ideal) (iblk m c 0 t) (iblk m c 1 t) (iblk m c 3 t) (iblk m c 2 t) (iblk m c 4 t) (iblk m c 6 t) (iblk m c 5 t)) (iblk m c 7 t) (iblk m c 9 t) (iblk m c 8 t) (iblk m c 10 t) (iblk m c 12 t) (iblk m c 11 t) (iblk m c 13 t) (iblk m c 15 t) (iblk m c 14 t) = _
  rw [store5 (iblk m c 0 t) (iblk m c 1 t) (iblk m c 3 t) (iblk m c 2 t) (iblk m c 4 t) (iblk m c 6 t) (iblk m c 5 t) (iblk m c 7 t) (iblk m c 9 t) (iblk m c 8 t) (iblk m c 10 t) (iblk m c 12 t) (iblk m c 11 t) (iblk m c 13 t) (iblk m c 15 t) (iblk m c 14 t), block_params m c t]

/-- The fifth output array after the region. -/
theorem final20 (c : Dev nD) :
    (dats m 0 c).arrAt 20 cfg0.N = (rows (net5 (launchParams m c)) (V m c main_arg0 : S16384x1024.Idx → EReal) : S16384x6.Idx → EReal) :=
  (dats m 0 c).arrAt_eq_of_cover 20 _ (fun t _ => flushed20_eq m c t) cover_20

/-! ## The results after the host lines that follow the region -/

/-- The host line after the region that widens the first output's float format leaves it unchanged on the
    extended reals: the first result. -/
theorem tail_main_v6 (c : Dev nD) :
    Pipeline.afterTail₀ cfgs (dats m) 0 (V0 m) [hostOps1] c main_v6
      = (rows (net1 (launchParams m c)) (m ((c : Thread nD τ).loc main_arg0) : S16384x1024.Idx → EReal) : S16384x1000.Idx → EReal) := by
  unfold Pipeline.afterTail₀
  show StableHlo.after hostOps1 _ (Proc.devRef .tc main_v6) = _
  after_results
  rw [Pipeline.withArrays_arr spec0 launch0.win.arr_inj c _ _ 16, final16 m c, V_main_arg0 m c]
  rfl

/-- The host line after the region that widens the second output's float format leaves it unchanged on the
    extended reals: the second result. -/
theorem tail_main_v7 (c : Dev nD) :
    Pipeline.afterTail₀ cfgs (dats m) 0 (V0 m) [hostOps1] c main_v7
      = (rows (net2 (launchParams m c)) (m ((c : Thread nD τ).loc main_arg0) : S16384x1024.Idx → EReal) : S16384x800.Idx → EReal) := by
  unfold Pipeline.afterTail₀
  show StableHlo.after hostOps1 _ (Proc.devRef .tc main_v7) = _
  after_results
  rw [Pipeline.withArrays_arr spec0 launch0.win.arr_inj c _ _ 17, final17 m c, V_main_arg0 m c]
  rfl

/-- The host line after the region that widens the third output's float format leaves it unchanged on the
    extended reals: the third result. -/
theorem tail_main_v8 (c : Dev nD) :
    Pipeline.afterTail₀ cfgs (dats m) 0 (V0 m) [hostOps1] c main_v8
      = (rows (net3 (launchParams m c)) (m ((c : Thread nD τ).loc main_arg0) : S16384x1024.Idx → EReal) : S16384x400.Idx → EReal) := by
  unfold Pipeline.afterTail₀
  show StableHlo.after hostOps1 _ (Proc.devRef .tc main_v8) = _
  after_results
  rw [Pipeline.withArrays_arr spec0 launch0.win.arr_inj c _ _ 18, final18 m c, V_main_arg0 m c]
  rfl

/-- The host line after the region that widens the fourth output's float format leaves it unchanged on the
    extended reals: the fourth result. -/
theorem tail_main_v9 (c : Dev nD) :
    Pipeline.afterTail₀ cfgs (dats m) 0 (V0 m) [hostOps1] c main_v9
      = (rows (net4 (launchParams m c)) (m ((c : Thread nD τ).loc main_arg0) : S16384x1024.Idx → EReal) : S16384x600.Idx → EReal) := by
  unfold Pipeline.afterTail₀
  show StableHlo.after hostOps1 _ (Proc.devRef .tc main_v9) = _
  after_results
  rw [Pipeline.withArrays_arr spec0 launch0.win.arr_inj c _ _ 19, final19 m c, V_main_arg0 m c]
  rfl

/-- The host line after the region that widens the fifth output's float format leaves it unchanged on the
    extended reals: the fifth result. -/
theorem tail_main_v10 (c : Dev nD) :
    Pipeline.afterTail₀ cfgs (dats m) 0 (V0 m) [hostOps1] c main_v10
      = (rows (net5 (launchParams m c)) (m ((c : Thread nD τ).loc main_arg0) : S16384x1024.Idx → EReal) : S16384x6.Idx → EReal) := by
  unfold Pipeline.afterTail₀
  show StableHlo.after hostOps1 _ (Proc.devRef .tc main_v10) = _
  after_results
  rw [Pipeline.withArrays_arr spec0 launch0.win.arr_inj c _ _ 20, final20 m c, V_main_arg0 m c]
  rfl

/-! ## The run, read -/

/-- Every weakly fair execution of the kernel's program ends with its six results at the network's row functions on
    every row of the input, and with the arguments unchanged. -/
theorem run : θ_run defs (onTc (τ := τ) (main (F := Ideal))) ⟨m, fun _ => 0, ρ⟩ fun r => ∀ c : Dev nD,
      r.2.mem ((c.tc : Thread nD τ).loc main_v10) = (rows (net5 (launchParams m c)) (m ((c : Thread nD τ).loc main_arg0) : S16384x1024.Idx → EReal) : S16384x6.Idx → EReal)
      ∧ r.2.mem ((c.tc : Thread nD τ).loc main_v6) = (rows (net1 (launchParams m c)) (m ((c : Thread nD τ).loc main_arg0) : S16384x1024.Idx → EReal) : S16384x1000.Idx → EReal)
      ∧ r.2.mem ((c.tc : Thread nD τ).loc main_v7) = (rows (net2 (launchParams m c)) (m ((c : Thread nD τ).loc main_arg0) : S16384x1024.Idx → EReal) : S16384x800.Idx → EReal)
      ∧ r.2.mem ((c.tc : Thread nD τ).loc main_v8) = (rows (net3 (launchParams m c)) (m ((c : Thread nD τ).loc main_arg0) : S16384x1024.Idx → EReal) : S16384x400.Idx → EReal)
      ∧ r.2.mem ((c.tc : Thread nD τ).loc main_v9) = (rows (net4 (launchParams m c)) (m ((c : Thread nD τ).loc main_arg0) : S16384x1024.Idx → EReal) : S16384x600.Idx → EReal)
      ∧ r.2.mem ((c.tc : Thread nD τ).loc main_v10) = (rows (net5 (launchParams m c)) (m ((c : Thread nD τ).loc main_arg0) : S16384x1024.Idx → EReal) : S16384x6.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(((h c).2 main_v10 (Pipeline.mem_restRefs_of main_v10 (by decide) (by decide))).trans (tail_main_v10 m c)),
      (((h c).2 main_v6 (Pipeline.mem_restRefs_of main_v6 (by decide) (by decide))).trans (tail_main_v6 m c)),
      (((h c).2 main_v7 (Pipeline.mem_restRefs_of main_v7 (by decide) (by decide))).trans (tail_main_v7 m c)),
      (((h c).2 main_v8 (Pipeline.mem_restRefs_of main_v8 (by decide) (by decide))).trans (tail_main_v8 m c)),
      (((h c).2 main_v9 (Pipeline.mem_restRefs_of main_v9 (by decide) (by decide))).trans (tail_main_v9 m c)),
      (((h c).2 main_v10 (Pipeline.mem_restRefs_of main_v10 (by decide) (by decide))).trans (tail_main_v10 m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      (((h c).2 main_arg14 (Pipeline.mem_restRefs_of main_arg14 (by decide) (by decide))).trans (W_main_arg14 m (dats m) c)),
      ((h c).1 15).trans (((dats m 0 c).arrAt_in 15 rfl _).trans ((A_eq m c 15).trans (V_main_arg15 m c)))⟩)
    (run_main m ρ)

end Cert.KernelIdeal.Arrays

end
-- ==== Proof.RefRows.lean ====
/-
  The reference program's five result arrays, one row of the input at a time.

  The reference computes each layer for all 16384 rows at once: the weights multiplied by the mask, transposed,
  a matrix product with the previous layer's result, the bias added to every row, and for the first three layers a
  maximum with zero. Read at entry (p, j), each layer's result depends on row p of its input alone; so each of the
  five results is the corresponding row function of the network (MaskedMlp.net1 … net5) on every row of x.
-/
import proofs.«103790_g54752243090113_cont_9to1c4b_246_27_alg».proof.Proof.Gen.ReferenceIdeal.Read
import proofs.«103790_g54752243090113_cont_9to1c4b_246_27_alg».proof.Proof.RowNet

noncomputable section

namespace Cert.ReferenceIdeal.RefRows

open Cert.ReferenceIdeal Cert.ReferenceIdeal.Gen Cert.ReferenceIdeal.Read Idealize.ShloMosaic Idealize.ShloMosaic.ValueIdx MaskedMlp

/-! ## One layer at a time, at an entry -/

/-- The reference's first layer, rectified: entry (p, j) from row p of the input. The host multiplies
    weights by mask, transposes, contracts the input's columns with the transposed matrix's rows — so entry (p, j)
    sums x(p, k) · (W(j, k) · M(j, k)) over k — and adds the bias, a vector broadcast over the rows. -/
theorem layer1_apply (x0 : (⟨S16384x1024, .f32⟩ : BufTy).Contents (Elt Ideal)) (x1 : (⟨S1000x1024, .f32⟩ : BufTy).Contents (Elt Ideal)) (x2 : (⟨S1000, .f32⟩ : BufTy).Contents (Elt Ideal)) (x3 : (⟨S1000x1024, .f32⟩ : BufTy).Contents (Elt Ideal)) (p : Fin 16384) (j : Fin 1000) :
    val_main_v6 (F := Ideal) x0 x1 x2 x3 (ix2 p j) = relu (dense (mat x1) (mat x3) (vec x2) (fun c => x0 (ix2 p c))) j := by
  have el : ∀ k : Fin 1024, lidx_main_v2 (ix2 p j) k = ix2 p k := fun k => funext fun a => Fin.ext (by
    match a with | ⟨0, _⟩ => rfl | ⟨1, _⟩ => rfl)
  have er : ∀ k : Fin 1024, idx_main_v1 (ridx_main_v2 (ix2 p j) k) = ix2 j k := fun k => funext fun a => Fin.ext (by
    match a with | ⟨0, _⟩ => rfl | ⟨1, _⟩ => rfl)
  have eb : idx_main_v3 (idx_main_v4 (ix2 p j)) = ix1 j := funext fun a => Fin.ext (by
    match a with | ⟨0, _⟩ => rfl)
  rw [val_main_v6_apply, val_main_v5_apply, val_main_v2_apply, val_main_v4_apply, val_main_v3_apply, val_main_call0_v0_apply, val_main_call0_cst_apply, eb]
  simp only [val_main_v1_apply, val_main_v0_apply, el, er, Ideal.maximumf_def, Ideal.addf_def, Ideal.mulf_def, Ideal.ofBits_def, Ideal.ofBits_zero_f32]
  rfl

/-- The reference's second layer, rectified: entry (p, j) from row p of the previous layer's result. The host multiplies
    weights by mask, transposes, contracts the input's columns with the transposed matrix's rows — so entry (p, j)
    sums x(p, k) · (W(j, k) · M(j, k)) over k — and adds the bias, a vector broadcast over the rows. -/
theorem layer2_apply (x0 : (⟨S16384x1024, .f32⟩ : BufTy).Contents (Elt Ideal)) (x1 : (⟨S1000x1024, .f32⟩ : BufTy).Contents (Elt Ideal)) (x2 : (⟨S1000, .f32⟩ : BufTy).Contents (Elt Ideal)) (x3 : (⟨S1000x1024, .f32⟩ : BufTy).Contents (Elt Ideal)) (x4 : (⟨S800x1000, .f32⟩ : BufTy).Contents (Elt Ideal)) (x5 : (⟨S800, .f32⟩ : BufTy).Contents (Elt Ideal)) (x6 : (⟨S800x1000, .f32⟩ : BufTy).Contents (Elt Ideal)) (p : Fin 16384) (j : Fin 800) :
    val_main_v13 (F := Ideal) x0 x1 x2 x3 x4 x5 x6 (ix2 p j) = relu (dense (mat x4) (mat x6) (vec x5) (fun c => val_main_v6 (F := Ideal) x0 x1 x2 x3 (ix2 p c))) j := by
  have el : ∀ k : Fin 1000, lidx_main_v9 (ix2 p j) k = ix2 p k := fun k => funext fun a => Fin.ext (by
    match a with | ⟨0, _⟩ => rfl | ⟨1, _⟩ => rfl)
  have er : ∀ k : Fin 1000, idx_main_v8 (ridx_main_v9 (ix2 p j) k) = ix2 j k := fun k => funext fun a => Fin.ext (by
    match a with | ⟨0, _⟩ => rfl | ⟨1, _⟩ => rfl)
  have eb : idx_main_v10 (idx_main_v11 (ix2 p j)) = ix1 j := funext fun a => Fin.ext (by
    match a with | ⟨0, _⟩ => rfl)
  rw [val_main_v13_apply, val_main_v12_apply, val_main_v9_apply, val_main_v11_apply, val_main_v10_apply, val_main_call1_v0_apply, val_main_call1_cst_apply, eb]
  simp only [val_main_v8_apply, val_main_v7_apply, el, er, Ideal.maximumf_def, Ideal.addf_def, Ideal.mulf_def, Ideal.ofBits_def, Ideal.ofBits_zero_f32]
  rfl

/-- The reference's third layer, rectified: entry (p, j) from row p of the previous layer's result. The host multiplies
    weights by mask, transposes, contracts the input's columns with the transposed matrix's rows — so entry (p, j)
    sums x(p, k) · (W(j, k) · M(j, k)) over k — and adds the bias, a vector broadcast over the rows. -/
theorem layer3_apply (x0 : (⟨S16384x1024, .f32⟩ : BufTy).Contents (Elt Ideal)) (x1 : (⟨S1000x1024, .f32⟩ : BufTy).Contents (Elt Ideal)) (x2 : (⟨S1000, .f32⟩ : BufTy).Contents (Elt Ideal)) (x3 : (⟨S1000x1024, .f32⟩ : BufTy).Contents (Elt Ideal)) (x4 : (⟨S800x1000, .f32⟩ : BufTy).Contents (Elt Ideal)) (x5 : (⟨S800, .f32⟩ : BufTy).Contents (Elt Ideal)) (x6 : (⟨S800x1000, .f32⟩ : BufTy).Contents (Elt Ideal)) (x7 : (⟨S400x800, .f32⟩ : BufTy).Contents (Elt Ideal)) (x8 : (⟨S400, .f32⟩ : BufTy).Contents (Elt Ideal)) (x9 : (⟨S400x800, .f32⟩ : BufTy).Contents (Elt Ideal)) (p : Fin 16384) (j : Fin 400) :
    val_main_v20 (F := Ideal) x0 x1 x2 x3 x4 x5 x6 x7 x8 x9 (ix2 p j) = relu (dense (mat x7) (mat x9) (vec x8) (fun c => val_main_v13 (F := Ideal) x0 x1 x2 x3 x4 x5 x6 (ix2 p c))) j := by
  have el : ∀ k : Fin 800, lidx_main_v16 (ix2 p j) k = ix2 p k := fun k => funext fun a => Fin.ext (by
    match a with | ⟨0, _⟩ => rfl | ⟨1, _⟩ => rfl)
  have er : ∀ k : Fin 800, idx_main_v15 (ridx_main_v16 (ix2 p j) k) = ix2 j k := fun k => funext fun a => Fin.ext (by
    match a with | ⟨0, _⟩ => rfl | ⟨1, _⟩ => rfl)
  have eb : idx_main_v17 (idx_main_v18 (ix2 p j)) = ix1 j := funext fun a => Fin.ext (by
    match a with | ⟨0, _⟩ => rfl)
  rw [val_main_v20_apply, val_main_v19_apply, val_main_v16_apply, val_main_v18_apply, val_main_v17_apply, val_main_call2_v0_apply, val_main_call2_cst_apply, eb]
  simp only [val_main_v15_apply, val_main_v14_apply, el, er, Ideal.maximumf_def, Ideal.addf_def, Ideal.mulf_def, Ideal.ofBits_def, Ideal.ofBits_zero_f32]
  rfl

/-- The reference's fourth layer: entry (p, j) from row p of the previous layer's result. The host multiplies
    weights by mask, transposes, contracts the input's columns with the transposed matrix's rows — so entry (p, j)
    sums x(p, k) · (W(j, k) · M(j, k)) over k — and adds the bias, a vector broadcast over the rows. -/
theorem layer4_apply (x0 : (⟨S16384x1024, .f32⟩ : BufTy).Contents (Elt Ideal)) (x1 : (⟨S1000x1024, .f32⟩ : BufTy).Contents (Elt Ideal)) (x2 : (⟨S1000, .f32⟩ : BufTy).Contents (Elt Ideal)) (x3 : (⟨S1000x1024, .f32⟩ : BufTy).Contents (Elt Ideal)) (x4 : (⟨S800x1000, .f32⟩ : BufTy).Contents (Elt Ideal)) (x5 : (⟨S800, .f32⟩ : BufTy).Contents (Elt Ideal)) (x6 : (⟨S800x1000, .f32⟩ : BufTy).Contents (Elt Ideal)) (x7 : (⟨S400x800, .f32⟩ : BufTy).Contents (Elt Ideal)) (x8 : (⟨S400, .f32⟩ : BufTy).Contents (Elt Ideal)) (x9 : (⟨S400x800, .f32⟩ : BufTy).Contents (Elt Ideal)) (x10 : (⟨S600x400, .f32⟩ : BufTy).Contents (Elt Ideal)) (x11 : (⟨S600, .f32⟩ : BufTy).Contents (Elt Ideal)) (x12 : (⟨S600x400, .f32⟩ : BufTy).Contents (Elt Ideal)) (p : Fin 16384) (j : Fin 600) :
    val_main_v26 (F := Ideal) x0 x1 x2 x3 x4 x5 x6 x7 x8 x9 x10 x11 x12 (ix2 p j) = dense (mat x10) (mat x12) (vec x11) (fun c => val_main_v20 (F := Ideal) x0 x1 x2 x3 x4 x5 x6 x7 x8 x9 (ix2 p c)) j := by
  have el : ∀ k : Fin 400, lidx_main_v23 (ix2 p j) k = ix2 p k := fun k => funext fun a => Fin.ext (by
    match a with | ⟨0, _⟩ => rfl | ⟨1, _⟩ => rfl)
  have er : ∀ k : Fin 400, idx_main_v22 (ridx_main_v23 (ix2 p j) k) = ix2 j k := fun k => funext fun a => Fin.ext (by
    match a with | ⟨0, _⟩ => rfl | ⟨1, _⟩ => rfl)
  have eb : idx_main_v24 (idx_main_v25 (ix2 p j)) = ix1 j := funext fun a => Fin.ext (by
    match a with | ⟨0, _⟩ => rfl)
  rw [val_main_v26_apply, val_main_v23_apply, val_main_v25_apply, val_main_v24_apply, eb]
  simp only [val_main_v22_apply, val_main_v21_apply, el, er, Ideal.maximumf_def, Ideal.addf_def, Ideal.mulf_def, Ideal.ofBits_def, Ideal.ofBits_zero_f32]
  rfl

/-- The reference's fifth layer: entry (p, j) from row p of the previous layer's result. The host multiplies
    weights by mask, transposes, contracts the input's columns with the transposed matrix's rows — so entry (p, j)
    sums x(p, k) · (W(j, k) · M(j, k)) over k — and adds the bias, a vector broadcast over the rows. -/
theorem layer5_apply (x0 : (⟨S16384x1024, .f32⟩ : BufTy).Contents (Elt Ideal)) (x1 : (⟨S1000x1024, .f32⟩ : BufTy).Contents (Elt Ideal)) (x2 : (⟨S1000, .f32⟩ : BufTy).Contents (Elt Ideal)) (x3 : (⟨S1000x1024, .f32⟩ : BufTy).Contents (Elt Ideal)) (x4 : (⟨S800x1000, .f32⟩ : BufTy).Contents (Elt Ideal)) (x5 : (⟨S800, .f32⟩ : BufTy).Contents (Elt Ideal)) (x6 : (⟨S800x1000, .f32⟩ : BufTy).Contents (Elt Ideal)) (x7 : (⟨S400x800, .f32⟩ : BufTy).Contents (Elt Ideal)) (x8 : (⟨S400, .f32⟩ : BufTy).Contents (Elt Ideal)) (x9 : (⟨S400x800, .f32⟩ : BufTy).Contents (Elt Ideal)) (x10 : (⟨S600x400, .f32⟩ : BufTy).Contents (Elt Ideal)) (x11 : (⟨S600, .f32⟩ : BufTy).Contents (Elt Ideal)) (x12 : (⟨S600x400, .f32⟩ : BufTy).Contents (Elt Ideal)) (x13 : (⟨S6x600, .f32⟩ : BufTy).Contents (Elt Ideal)) (x14 : (⟨S6, .f32⟩ : BufTy).Contents (Elt Ideal)) (x15 : (⟨S6x600, .f32⟩ : BufTy).Contents (Elt Ideal)) (p : Fin 16384) (j : Fin 6) :
    val_main_v32 (F := Ideal) x0 x1 x2 x3 x4 x5 x6 x7 x8 x9 x10 x11 x12 x13 x14 x15 (ix2 p j) = dense (mat x13) (mat x15) (vec x14) (fun c => val_main_v26 (F := Ideal) x0 x1 x2 x3 x4 x5 x6 x7 x8 x9 x10 x11 x12 (ix2 p c)) j := by
  have el : ∀ k : Fin 600, lidx_main_v29 (ix2 p j) k = ix2 p k := fun k => funext fun a => Fin.ext (by
    match a with | ⟨0, _⟩ => rfl | ⟨1, _⟩ => rfl)
  have er : ∀ k : Fin 600, idx_main_v28 (ridx_main_v29 (ix2 p j) k) = ix2 j k := fun k => funext fun a => Fin.ext (by
    match a with | ⟨0, _⟩ => rfl | ⟨1, _⟩ => rfl)
  have eb : idx_main_v30 (idx_main_v31 (ix2 p j)) = ix1 j := funext fun a => Fin.ext (by
    match a with | ⟨0, _⟩ => rfl)
  rw [val_main_v32_apply, val_main_v29_apply, val_main_v31_apply, val_main_v30_apply, eb]
  simp only [val_main_v28_apply, val_main_v27_apply, el, er, Ideal.maximumf_def, Ideal.addf_def, Ideal.mulf_def, Ideal.ofBits_def, Ideal.ofBits_zero_f32]
  rfl

/-! ## The five results as the network's row functions -/

variable (x0 : (⟨S16384x1024, .f32⟩ : BufTy).Contents (Elt Ideal)) (x1 : (⟨S1000x1024, .f32⟩ : BufTy).Contents (Elt Ideal)) (x2 : (⟨S1000, .f32⟩ : BufTy).Contents (Elt Ideal)) (x3 : (⟨S1000x1024, .f32⟩ : BufTy).Contents (Elt Ideal)) (x4 : (⟨S800x1000, .f32⟩ : BufTy).Contents (Elt Ideal)) (x5 : (⟨S800, .f32⟩ : BufTy).Contents (Elt Ideal)) (x6 : (⟨S800x1000, .f32⟩ : BufTy).Contents (Elt Ideal)) (x7 : (⟨S400x800, .f32⟩ : BufTy).Contents (Elt Ideal)) (x8 : (⟨S400, .f32⟩ : BufTy).Contents (Elt Ideal)) (x9 : (⟨S400x800, .f32⟩ : BufTy).Contents (Elt Ideal)) (x10 : (⟨S600x400, .f32⟩ : BufTy).Contents (Elt Ideal)) (x11 : (⟨S600, .f32⟩ : BufTy).Contents (Elt Ideal)) (x12 : (⟨S600x400, .f32⟩ : BufTy).Contents (Elt Ideal)) (x13 : (⟨S6x600, .f32⟩ : BufTy).Contents (Elt Ideal)) (x14 : (⟨S6, .f32⟩ : BufTy).Contents (Elt Ideal)) (x15 : (⟨S6x600, .f32⟩ : BufTy).Contents (Elt Ideal))

local notation "𝑃" => argParams x1 x3 x2 x4 x6 x5 x7 x9 x8 x10 x12 x11 x13 x15 x14

/-- The reference's first result array is the network's first row function on every row of the input. -/
theorem h1 : val_main_v6 (F := Ideal) x0 x1 x2 x3 = rows (net1 𝑃) x0 :=
  funext fun i => by
    obtain ⟨p, q, rfl⟩ : ∃ (p : Fin 16384) (q : Fin 1000), i = ix2 p q := ⟨i 0, i 1, eq_ix2 i⟩
    refine (layer1_apply x0 x1 x2 x3 p q).trans ?_
    rfl

/-- The reference's second result array is the network's second row function on every row of the input. -/
theorem h2 : val_main_v13 (F := Ideal) x0 x1 x2 x3 x4 x5 x6 = rows (net2 𝑃) x0 :=
  funext fun i => by
    obtain ⟨p, q, rfl⟩ : ∃ (p : Fin 16384) (q : Fin 800), i = ix2 p q := ⟨i 0, i 1, eq_ix2 i⟩
    refine (layer2_apply x0 x1 x2 x3 x4 x5 x6 p q).trans ?_
    rw [h1 x0 x1 x2 x3 x4 x5 x6 x7 x8 x9 x10 x11 x12 x13 x14 x15]
    rfl

/-- The reference's third result array is the network's third row function on every row of the input. -/
theorem h3 : val_main_v20 (F := Ideal) x0 x1 x2 x3 x4 x5 x6 x7 x8 x9 = rows (net3 𝑃) x0 :=
  funext fun i => by
    obtain ⟨p, q, rfl⟩ : ∃ (p : Fin 16384) (q : Fin 400), i = ix2 p q := ⟨i 0, i 1, eq_ix2 i⟩
    refine (layer3_apply x0 x1 x2 x3 x4 x5 x6 x7 x8 x9 p q).trans ?_
    rw [h2 x0 x1 x2 x3 x4 x5 x6 x7 x8 x9 x10 x11 x12 x13 x14 x15]
    rfl

/-- The reference's fourth result array is the network's fourth row function on every row of the input. -/
theorem h4 : val_main_v26 (F := Ideal) x0 x1 x2 x3 x4 x5 x6 x7 x8 x9 x10 x11 x12 = rows (net4 𝑃) x0 :=
  funext fun i => by
    obtain ⟨p, q, rfl⟩ : ∃ (p : Fin 16384) (q : Fin 600), i = ix2 p q := ⟨i 0, i 1, eq_ix2 i⟩
    refine (layer4_apply x0 x1 x2 x3 x4 x5 x6 x7 x8 x9 x10 x11 x12 p q).trans ?_
    rw [h3 x0 x1 x2 x3 x4 x5 x6 x7 x8 x9 x10 x11 x12 x13 x14 x15]
    rfl

/-- The reference's fifth result array is the network's fifth row function on every row of the input. -/
theorem h5 : val_main_v32 (F := Ideal) x0 x1 x2 x3 x4 x5 x6 x7 x8 x9 x10 x11 x12 x13 x14 x15 = rows (net5 𝑃) x0 :=
  funext fun i => by
    obtain ⟨p, q, rfl⟩ : ∃ (p : Fin 16384) (q : Fin 6), i = ix2 p q := ⟨i 0, i 1, eq_ix2 i⟩
    refine (layer5_apply x0 x1 x2 x3 x4 x5 x6 x7 x8 x9 x10 x11 x12 x13 x14 x15 p q).trans ?_
    rw [h4 x0 x1 x2 x3 x4 x5 x6 x7 x8 x9 x10 x11 x12 x13 x14 x15]
    rfl

end Cert.ReferenceIdeal.RefRows

end
-- ==== Proof.lean ====
/-
  The certificate of a fused five-layer masked perceptron kernel against its layer-by-layer reference.

  Both programs compute, for every row r of the 16384×1024 input x, the five rows
      h1 = max(r·(W1∘M1)ᵀ + b1, 0),  h2 = max(h1·(W2∘M2)ᵀ + b2, 0),  h3 = max(h2·(W3∘M3)ᵀ + b3, 0),
      h4 = h3·(W4∘M4)ᵀ + b4,  h5 = h4·(W5∘M5)ᵀ + b5
  (∘ the entrywise product with the mask), and return (h5, h1, h2, h3, h4, h5) for all rows. The kernel does it tile
  by tile of 512 rows in one region of 32 grid points, its matrix products contracting the last axis of both
  operands and its intermediate values passing through a narrower float format (the identity on the extended
  reals); the reference does it layer by layer over all rows, transposing the masked weights first. On the extended
  reals both are the same sums of the same products — Σ_k x(p,k)·(W(j,k)·M(j,k)), then the bias — so the two
  programs end with equal results; no finiteness of the inputs is needed, only that addition and multiplication
  are the same operations on both sides.

  The frames of the two kernel programs and the run of the reference are the generated ones; proved here is that
  the kernel's output arrays (read off its generated frame run, Proof/KernelArrays.lean) and the reference's
  results (read off its generated run, Proof/RefRows.lean) are one function of the arguments (Proof/RowNet.lean).
-/
import proofs.«103790_g54752243090113_cont_9to1c4b_246_27_alg».proof.Defs
import proofs.«103790_g54752243090113_cont_9to1c4b_246_27_alg».proof.Proof.Gen.Kernel
import proofs.«103790_g54752243090113_cont_9to1c4b_246_27_alg».proof.Proof.Gen.Kernel.Skeleton
import proofs.«103790_g54752243090113_cont_9to1c4b_246_27_alg».proof.Proof.Gen.Kernel.Launch
import proofs.«103790_g54752243090113_cont_9to1c4b_246_27_alg».proof.Proof.Gen.Kernel.Points
import proofs.«103790_g54752243090113_cont_9to1c4b_246_27_alg».proof.Proof.Gen.Kernel.Frame
import proofs.«103790_g54752243090113_cont_9to1c4b_246_27_alg».proof.Proof.Gen.KernelIdeal
import proofs.«103790_g54752243090113_cont_9to1c4b_246_27_alg».proof.Proof.Gen.KernelIdeal.Skeleton
import proofs.«103790_g54752243090113_cont_9to1c4b_246_27_alg».proof.Proof.Gen.KernelIdeal.Launch
import proofs.«103790_g54752243090113_cont_9to1c4b_246_27_alg».proof.Proof.Gen.KernelIdeal.Points
import proofs.«103790_g54752243090113_cont_9to1c4b_246_27_alg».proof.Proof.Gen.KernelIdeal.Frame
import proofs.«103790_g54752243090113_cont_9to1c4b_246_27_alg».proof.Proof.Gen.ReferenceIdeal
import proofs.«103790_g54752243090113_cont_9to1c4b_246_27_alg».proof.Proof.Gen.ReferenceIdeal.Run
import proofs.«103790_g54752243090113_cont_9to1c4b_246_27_alg».proof.Proof.Gen.ReferenceIdeal.Read
import proofs.«103790_g54752243090113_cont_9to1c4b_246_27_alg».proof.Proof.Gen.Pre_finite_inputs
import proofs.«103790_g54752243090113_cont_9to1c4b_246_27_alg».proof.Proof.KernelArrays
import proofs.«103790_g54752243090113_cont_9to1c4b_246_27_alg».proof.Proof.RefRows
import Idealize.ShloMosaic.Adequacy
import Idealize.ShloMosaic.Init

noncomputable section

namespace Cert.Proof

open Idealize.ShloMosaic Idealize.ShloMosaic.TcCoe Idealize.SL.Sem MaskedMlp

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run with the results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- The reference's first result, from a memory that agrees with the kernel's on the arguments, is the kernel's
    first result: the same row function of the same arrays. -/
theorem same1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Read.val_main_v6 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      = (rows (net1 (Cert.KernelIdeal.Arrays.launchParams m c)) (m ((c.tc : Thread Cert.KernelIdeal.nD Cert.KernelIdeal.τ).loc Cert.KernelIdeal.main_arg0) : Cert.KernelIdeal.S16384x1024.Idx → EReal) : Cert.KernelIdeal.S16384x1000.Idx → EReal) :=
  (Cert.ReferenceIdeal.RefRows.h1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans (by
    rw [a0, a1, a2, a3, a4, a5, a6, a7, a8, a9, a10, a11, a12, a13, a14, a15]; rfl)

/-- The reference's second result, from a memory that agrees with the kernel's on the arguments, is the kernel's
    second result: the same row function of the same arrays. -/
theorem same2 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Read.val_main_v13 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      = (rows (net2 (Cert.KernelIdeal.Arrays.launchParams m c)) (m ((c.tc : Thread Cert.KernelIdeal.nD Cert.KernelIdeal.τ).loc Cert.KernelIdeal.main_arg0) : Cert.KernelIdeal.S16384x1024.Idx → EReal) : Cert.KernelIdeal.S16384x800.Idx → EReal) :=
  (Cert.ReferenceIdeal.RefRows.h2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans (by
    rw [a0, a1, a2, a3, a4, a5, a6, a7, a8, a9, a10, a11, a12, a13, a14, a15]; rfl)

/-- The reference's third result, from a memory that agrees with the kernel's on the arguments, is the kernel's
    third result: the same row function of the same arrays. -/
theorem same3 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Read.val_main_v20 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      = (rows (net3 (Cert.KernelIdeal.Arrays.launchParams m c)) (m ((c.tc : Thread Cert.KernelIdeal.nD Cert.KernelIdeal.τ).loc Cert.KernelIdeal.main_arg0) : Cert.KernelIdeal.S16384x1024.Idx → EReal) : Cert.KernelIdeal.S16384x400.Idx → EReal) :=
  (Cert.ReferenceIdeal.RefRows.h3 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans (by
    rw [a0, a1, a2, a3, a4, a5, a6, a7, a8, a9, a10, a11, a12, a13, a14, a15]; rfl)

/-- The reference's fourth result, from a memory that agrees with the kernel's on the arguments, is the kernel's
    fourth result: the same row function of the same arrays. -/
theorem same4 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Read.val_main_v26 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = (rows (net4 (Cert.KernelIdeal.Arrays.launchParams m c)) (m ((c.tc : Thread Cert.KernelIdeal.nD Cert.KernelIdeal.τ).loc Cert.KernelIdeal.main_arg0) : Cert.KernelIdeal.S16384x1024.Idx → EReal) : Cert.KernelIdeal.S16384x600.Idx → EReal) :=
  (Cert.ReferenceIdeal.RefRows.h4 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans (by
    rw [a0, a1, a2, a3, a4, a5, a6, a7, a8, a9, a10, a11, a12, a13, a14, a15]; rfl)

/-- The reference's fifth result, from a memory that agrees with the kernel's on the arguments, is the kernel's
    fifth result: the same row function of the same arrays. -/
theorem same5 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Read.val_main_v32 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      = (rows (net5 (Cert.KernelIdeal.Arrays.launchParams m c)) (m ((c.tc : Thread Cert.KernelIdeal.nD Cert.KernelIdeal.τ).loc Cert.KernelIdeal.main_arg0) : Cert.KernelIdeal.S16384x1024.Idx → EReal) : Cert.KernelIdeal.S16384x6.Idx → EReal) :=
  (Cert.ReferenceIdeal.RefRows.h5 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans (by
    rw [a0, a1, a2, a3, a4, a5, a6, a7, a8, a9, a10, a11, a12, a13, a14, a15]; rfl)

/-- From memories that agree on the sixteen arguments, the kernel's six results and the reference's are the same
    row functions of the same arguments. -/
theorem algebraic : Cert.algebraic_KernelIdeal_ReferenceIdeal := by
  intro m ρ m' ρ' _ hagree
  refine ⟨_, _, _, _, _, _, Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15⟩ := hagree c
  obtain ⟨r0, r1, r2, r3, r4, r5, rest⟩ := h c
  exact ⟨r0.trans (same5 m m' c a0 a1 a2 a3 a4 a5 a6 a7 a8 a9 a10 a11 a12 a13 a14 a15), r1.trans (same1 m m' c a0 a1 a2 a3 a4 a5 a6 a7 a8 a9 a10 a11 a12 a13 a14 a15),
    r2.trans (same2 m m' c a0 a1 a2 a3 a4 a5 a6 a7 a8 a9 a10 a11 a12 a13 a14 a15), r3.trans (same3 m m' c a0 a1 a2 a3 a4 a5 a6 a7 a8 a9 a10 a11 a12 a13 a14 a15),
    r4.trans (same4 m m' c a0 a1 a2 a3 a4 a5 a6 a7 a8 a9 a10 a11 a12 a13 a14 a15), r5.trans (same5 m m' c a0 a1 a2 a3 a4 a5 a6 a7 a8 a9 a10 a11 a12 a13 a14 a15), rest⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
